-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S8388608 : Shape := ⟨1, ![8388608]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : FVec F S8388608x4 .f32) (main_arg1 : FVec F S8388608 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  main_v8
-- ==== Kernel.lean ====
abbrev S8388608x4 : Shape := ⟨2, ![8388608, 4]⟩
abbrev S8388608 : Shape := ⟨1, ![8388608]⟩
abbrev S8388608x1 : Shape := ⟨2, ![8388608, 1]⟩
abbrev S1x1 : Shape := ⟨2, ![1, 1]⟩
abbrev S_ : Shape := ⟨0, ![]⟩
abbrev S16384x4 : Shape := ⟨2, ![16384, 4]⟩
abbrev S16384x1 : Shape := ⟨2, ![16384, 1]⟩
abbrev S16384 : Shape := ⟨1, ![16384]⟩
abbrev S1x16384x4 : Shape := ⟨3, ![1, 16384, 4]⟩
abbrev S1 : Shape := ⟨1, ![1]⟩
abbrev S1x1x1 : Shape := ⟨3, ![1, 1, 1]⟩

abbrev nBuf : Space → Nat
  | .hbm => 5
  | .vmem => 6
  | .smem => 0
  | _ => 0

abbrev bufTy : (tb : Table) → Fin (tcTables nBuf tb) → BufTy
  | .hbm, ⟨0, _⟩ => ⟨S8388608x4, .f32⟩
  | .hbm, ⟨1, _⟩ => ⟨S8388608, .f32⟩
  | .hbm, ⟨2, _⟩ => ⟨S8388608x1, .f32⟩
  | .hbm, ⟨3, _⟩ => ⟨S1x1, .f32⟩
  | .hbm, ⟨4, _⟩ => ⟨S_, .f32⟩
  | .local _ .vmem, ⟨0, _⟩ => ⟨S16384x4, .f32⟩
  | .local _ .vmem, ⟨1, _⟩ => ⟨S16384x4, .f32⟩
  | .local _ .vmem, ⟨2, _⟩ => ⟨S16384x1, .f32⟩
  | .local _ .vmem, ⟨3, _⟩ => ⟨S16384x1, .f32⟩
  | .local _ .vmem, ⟨4, _⟩ => ⟨S1x1, .f32⟩
  | .local _ .vmem, ⟨5, _⟩ => ⟨S1x1, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v63 : BitVec 1 := Scalar.cmpi .eq arg0 c511_i32
  let v64 : BitVec 32 := Scalar.extui v63
  let c0_i32_28 : BitVec 32 := 0#32
  let v65 : BitVec 1 := Scalar.cmpi .ne v64 c0_i32_28
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8388608_S8388608x1 : S8388608.ShapeCasts S8388608x1
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x4_S16384x4_0_0 : ∀ a, (![0, 0] : Fin 2 → Nat) a + S16384x4.size a ≤ S16384x4.size a
  h_S16384x4 : 0 < S16384x4.numel
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  reduces_S16384x4_S16384 : S16384x4.Reduces [1] S16384
  shapeCasts_S16384_S16384x1 : S16384.ShapeCasts S16384x1
  broadcasts_S16384x1_S16384x4 : S16384x1.Broadcasts S16384x4
  concatenates_S16384x1_S16384x1_S16384x1_S16384x1_S16384x4_d1 : Shape.Concatenates [S16384x1, S16384x1, S16384x1, S16384x1] S16384x4 1
  shapeCasts_S16384x4_S1x16384x4 : S16384x4.ShapeCasts S1x16384x4
  reduces_S1x16384x4_S1 : S1x16384x4.Reduces [1, 2] S1
  shapeCasts_S1_S1x1x1 : S1.ShapeCasts S1x1x1
  inpos_S1x1x1_p0_0_0 : ∀ a, (![0, 0, 0] : Fin 3 → Nat) a < S1x1x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x4.size a ≤ S8388608x4.size a
  hwx0_0 : ∀ i : grid0.Coords, EltTy.bits .f32 = 32 ∨ (Rect.block (s := S8388608x4) S16384x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S8388608x1.size a
  hwx0_1 : ∀ i : grid0.Coords, EltTy.bits .f32 = 32 ∨ (Rect.block (s := S8388608x1) S16384x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S16384x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S16384x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x4 : Shape := ⟨2, ![8388608, 4]⟩
abbrev S8388608 : Shape := ⟨1, ![8388608]⟩
abbrev S4x4 : Shape := ⟨2, ![4, 4]⟩
abbrev S_ : Shape := ⟨0, ![]⟩
abbrev S8388608x1 : Shape := ⟨2, ![8388608, 1]⟩

abbrev nBuf : Space → Nat
  | .hbm => 58
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608, .f32⟩
  | .hbm, ⟨2, _⟩ => ⟨S4x4, .f32⟩
  | .hbm, ⟨3, _⟩ => ⟨S_, .f32⟩
  | .hbm, ⟨4, _⟩ => ⟨S8388608, .f32⟩
  | .hbm, ⟨5, _⟩ => ⟨S_, .f32⟩
  | .hbm, ⟨6, _⟩ => ⟨S8388608, .f32⟩
  | .hbm, ⟨7, _⟩ => ⟨S8388608, .f32⟩
  | .hbm, ⟨8, _⟩ => ⟨S8388608x1, .f32⟩
  | .hbm, ⟨9, _⟩ => ⟨S8388608x4, .f32⟩
  | .hbm, ⟨10, _⟩ => ⟨S8388608x4, .f32⟩
  | .hbm, ⟨11, _⟩ => ⟨S8388608x4, .f32⟩
  | .hbm, ⟨12, _⟩ => ⟨S_, .f32⟩
  | .hbm, ⟨13, _⟩ => ⟨S8388608, .f32⟩
  | .hbm, ⟨14, _⟩ => ⟨S8388608x1, .f32⟩
  | .hbm, ⟨15, _⟩ => ⟨S8388608x4, .f32⟩
  | .hbm, ⟨16, _⟩ => ⟨S8388608x4, .f32⟩
  | .hbm, ⟨17, _⟩ => ⟨S_, .f32⟩
  | .hbm, ⟨18, _⟩ => ⟨S8388608, .f32⟩
  | .hbm, ⟨19, _⟩ => ⟨S8388608, .i1⟩
  | .hbm, ⟨20, _⟩ => ⟨S_, .f32⟩
  | .hbm, ⟨21, _⟩ => ⟨S8388608, .f32⟩
  | .hbm, ⟨22, _⟩ => ⟨S8388608, .i1⟩
  | .hbm, ⟨23, _⟩ => ⟨S_, .f32⟩
  | .hbm, ⟨24, _⟩ => ⟨S8388608, .f32⟩
  | .hbm, ⟨25, _⟩ => ⟨S8388608, .i1⟩
  | .hbm, ⟨26, _⟩ => ⟨S_, .i32⟩
  | .hbm, ⟨27, _⟩ => ⟨S_, .i32⟩
  | .hbm, ⟨28, _⟩ => ⟨S8388608, .i32⟩
  | .hbm, ⟨29, _⟩ => ⟨S8388608, .i32⟩
  | .hbm, ⟨30, _⟩ => ⟨S8388608, .i32⟩
  | .hbm, ⟨31, _⟩ => ⟨S_, .i32⟩
  | .hbm, ⟨32, _⟩ => ⟨S8388608, .i32⟩
  | .hbm, ⟨33, _⟩ => ⟨S8388608, .i32⟩
  | .hbm, ⟨34, _⟩ => ⟨S_, .i32⟩
  | .hbm, ⟨35, _⟩ => ⟨S8388608, .i32⟩
  | .hbm, ⟨36, _⟩ => ⟨S8388608, .i32⟩
  | .hbm, ⟨37, _⟩ => ⟨S_, .i32⟩
  | .hbm, ⟨38, _⟩ => ⟨S8388608, .i32⟩
  | .hbm, ⟨39, _⟩ => ⟨S8388608, .i1⟩
  | .hbm, ⟨40, _⟩ => ⟨S_, .i32⟩
  | .hbm, ⟨41, _⟩ => ⟨S8388608, .i32⟩
  | .hbm, ⟨42, _⟩ => ⟨S8388608, .i32⟩
  | .hbm, ⟨43, _⟩ => ⟨S8388608, .i32⟩
  | .hbm, ⟨44, _⟩ => ⟨S8388608x1, .i32⟩
  | .hbm, ⟨45, _⟩ => ⟨S8388608x4, .f32⟩
  | .hbm, ⟨46, _⟩ => ⟨S_, .f32⟩
  | .hbm, ⟨47, _⟩ => ⟨S8388608x4, .f32⟩
  | .hbm, ⟨48, _⟩ => ⟨S8388608x4, .f32⟩
  | .hbm, ⟨49, _⟩ => ⟨S8388608x4, .f32⟩
  | .hbm, ⟨50, _⟩ => ⟨S_, .f32⟩
  | .hbm, ⟨51, _⟩ => ⟨S8388608x4, .f32⟩
  | .hbm, ⟨52, _⟩ => ⟨S8388608x4, .f32⟩
  | .hbm, ⟨53, _⟩ => ⟨S8388608x4, .f32⟩
  | .hbm, ⟨54, _⟩ => ⟨S8388608x4, .f32⟩
  | .hbm, ⟨55, _⟩ => ⟨S8388608x4, .f32⟩
  | .hbm, ⟨56, _⟩ => ⟨S_, .f32⟩
  | .hbm, ⟨57, _⟩ => ⟨S_, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_c_6 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c_7 : Ref sig .tc := ⟨.hbm, 31, rfl⟩
abbrev main_call1_v0 : Ref sig .tc := ⟨.hbm, 32, rfl⟩
abbrev main_v18 : Ref sig .tc := ⟨.hbm, 33, rfl⟩
abbrev main_c_8 : Ref sig .tc := ⟨.hbm, 34, rfl⟩
abbrev main_call2_v0 : Ref sig .tc := ⟨.hbm, 35, rfl⟩
abbrev main_v19 : Ref sig .tc := ⟨.hbm, 36, rfl⟩
abbrev main_c_9 : Ref sig .tc := ⟨.hbm, 37, rfl⟩
abbrev main_v20 : Ref sig .tc := ⟨.hbm, 38, rfl⟩
abbrev main_v21 : Ref sig .tc := ⟨.hbm, 39, rfl⟩
abbrev main_c_10 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_11 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_12 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_13 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  reducesTo_S8388608x4_S8388608_d1 : S8388608x4.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x4_0_1 : S8388608x1.BroadcastsInDim S8388608x4 (![0, 1] : Fin 2 → Fin S8388608x4.rank)
  bcast_S_S8388608x4 : S_.BroadcastsInDim S8388608x4 (![] : Fin 0 → Fin S8388608x4.rank)
  reducesTo_S8388608x4_S_d0_1 : S8388608x4.ReducesTo [0, 1] S_
  gather_S4x4_S8388608x1_S8388608x4_1_0_n_n_0_1_14_wf : GatherDims.WF S4x4 S8388608x1 S8388608x4 [1] [0] [] [0] [] 1 ![1, 4]

variable [Facts₀]

def gather_S4x4_S8388608x1_S8388608x4_1_0_n_n_0_1_14 : GatherDims S4x4 S8388608x1 S8388608x4 where
  offsetDims := [1]
  collapsedSliceDims := [0]
  operandBatchingDims := []
  startIndicesBatchingDims := []
  startIndexMap := [0]
  indexVectorDim := 1
  sliceSizes := ![1, 4]
  wf := gather_S4x4_S8388608x1_S8388608x4_1_0_n_n_0_1_14_wf

class Facts : Prop extends Facts₀ where

variable [Facts]
-- ==== Proof.KernelPieces.lean ====
/-
  What the kernel body leaves behind at one grid point, case by case, as values. The body keeps a one-entry accumulator
  across the 512 grid points: at the first point it resets it to zero, at every point it adds that point's block loss
  into it, and at the last point it copies it into the one-entry output block. Each case of the body's two conditionals
  ends with the accumulator at the SAME function `step` of the point's two input blocks and of the accumulator it found
  (at the first point: of the zero block it has just stored).
-/
import proofs.«128885_j21036749815963_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz : (![0, 0] : Fin 2 → Nat) = fun _ => 0 := funext fun a => by fin_cases a <;> rfl

/-- What one grid point stores into the carried accumulator, as a function of the point's two input blocks and of the
    accumulator it finds: the body's one payload applied to the softmax and the target columns of the blocks. -/
abbrev step (x0 : Vec F S16384x4 .f32) (x1 : Vec F S16384x1 .f32) (acc : Vec F S1x1 .f32) : Vec F S1x1 .f32 :=
  k0_pay1 (k0_pay4 x0) (k0_pay7 x1) (k0_pay8 x1) (k0_pay9 x1) (k0_pay10 x1) (k0_pay11 x1) (Scalar.ofBits .f32 0x3F666666#32) acc

/-- A middle point (neither first nor last): the accumulator it finds, stepped. -/
theorem sout_B (c : Dev nD) (i : grid0.Coords) (a1 : Memref sig .tc .vmem S16384x4 .f32) (h1 : a1.IsWhole) (a2 : Memref sig .tc .vmem S16384x1 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i)
    (x0 : Vec F S16384x4 .f32) (x1 : Vec F S16384x1 .f32) (xs0 : Vec F S1x1 .f32) :
    sout0_B_0 c i a1 h1 a2 h2 a3 h3 a4 h4 hc0 hc1 x0 x1 xs0 = step x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S16384x4) hz, View.ld_unit_zero (S := S16384x1) hz, View.ld_unit_zero (S := S1x1) hz]

/-- The first point: the accumulator is reset to the zero block, read back, and stepped. -/
theorem sout_A (c : Dev nD) (i : grid0.Coords) (a1 : Memref sig .tc .vmem S16384x4 .f32) (h1 : a1.IsWhole) (a2 : Memref sig .tc .vmem S16384x1 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i)
    (x0 : Vec F S16384x4 .f32) (x1 : Vec F S16384x1 .f32) :
    sout0_A_0 c i a1 h1 a2 h2 a3 h3 a4 h4 hc0 hc1 x0 x1 = step x0 x1 (k0_pay2 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h4.read_unread, View.ld_unit_zero (S := S16384x4) hz, View.ld_unit_zero (S := S16384x1) hz, View.ld_unit_zero (S := S1x1) hz]

/-- The last point: the accumulator it finds, stepped … -/
theorem sout_C (c : Dev nD) (i : grid0.Coords) (a1 : Memref sig .tc .vmem S16384x4 .f32) (h1 : a1.IsWhole) (a2 : Memref sig .tc .vmem S16384x1 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 : Vec F S16384x4 .f32) (x1 : Vec F S16384x1 .f32) (xs0 : Vec F S1x1 .f32) :
    sout0_C_0 c i a1 h1 a2 h2 a3 h3 a4 h4 hc0 hc1 x0 x1 xs0 = step x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S16384x4) hz, View.ld_unit_zero (S := S16384x1) hz, View.ld_unit_zero (S := S1x1) hz]

/-- … and the output block receives that stepped accumulator, read back after its store. -/
theorem out_C (c : Dev nD) (i : grid0.Coords) (a1 : Memref sig .tc .vmem S16384x4 .f32) (h1 : a1.IsWhole) (a2 : Memref sig .tc .vmem S16384x1 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 : Vec F S16384x4 .f32) (x1 : Vec F S16384x1 .f32) (xs0 : Vec F S1x1 .f32) :
    out0_C_2 c i a1 h1 a2 h2 a3 h3 a4 h4 hc0 hc1 x0 x1 xs0 = step x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S16384x4) hz, View.ld_unit_zero (S := S16384x1) hz, View.ld_unit_zero (S := S1x1) hz]

end Cert.KernelIdeal.Hand

end
-- ==== Proof.KernelAcc.lean ====
/-
  The accumulator over the grid. After grid point `n` the carried one-entry accumulator holds the fold of `step` over
  the points `0 … n`, started from the zero block the first point stores: `acc 0 = step (blocks at 0) zero`,
  `acc (n + 1) = step (blocks at n + 1) (acc n)`. This is read off the generated point-by-point contents by induction on
  the point (the three cases of the body's conditionals all leave `step`); at the last point the output block receives
  the same value.
-/
import proofs.«128885_j21036749815963_2_alg».proof.Proof.KernelPieces

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ)

/-- The two input blocks of grid point `t`: 16384 rows of the logits, and the same rows of the target column. -/
abbrev blk0 (c : Dev nD) (t : Fin cfg0.N) : Vec F S16384x4 .f32 := iblk m c 0 t
abbrev blk1 (c : Dev nD) (t : Fin cfg0.N) : Vec F S16384x1 .f32 := iblk m c 1 t

/-- The accumulator after point `n`: the fold of `step` over the points up to `n`, from the zero block. -/
def acc (c : Dev nD) : (n : ℕ) → n < cfg0.N → Vec F S1x1 .f32
  | 0, h => step (blk0 m c ⟨0, h⟩) (blk1 m c ⟨0, h⟩) (k0_pay2 (F := F))
  | n + 1, h => step (blk0 m c ⟨n + 1, h⟩) (blk1 m c ⟨n + 1, h⟩) (acc c n (Nat.lt_of_succ_lt h))

/-- What the generated point-by-point contents say the carried accumulator holds after point `n` is that fold. -/
theorem outsAt_snd (c : Dev nD) : ∀ (n : ℕ) (h : n < cfg0.N), (outsAt0 m c n h).2 = acc m c n h
  | 0, h => by
    refine (congrArg Prod.snd (outsAt0_A m c ⟨0, h⟩ rfl (by dsimp only; omega))).trans ?_
    dsimp only
    exact sout_A ..
  | n + 1, h => by
    have hN : cfg0.N = 512 := N_0
    have h0 : ¬(⟨n + 1, h⟩ : Fin cfg0.N).val % 512 = 0 := by dsimp only; omega
    by_cases h1 : (⟨n + 1, h⟩ : Fin cfg0.N).val % 512 = 511
    · refine (congrArg Prod.snd (outsAt0_C m c ⟨n + 1, h⟩ h0 h1)).trans ?_
      dsimp only
      refine (sout_C ..).trans ?_
      show step _ _ (outsAt0 m c n _).2 = step _ _ (acc m c n _)
      rw [outsAt_snd c n]
    · refine (congrArg Prod.snd (outsAt0_B m c ⟨n + 1, h⟩ h0 h1)).trans ?_
      dsimp only
      refine (sout_B ..).trans ?_
      show step _ _ (outsAt0 m c n _).2 = step _ _ (acc m c n _)
      rw [outsAt_snd c n]

/-- At the last point the output block holds the accumulator after that point. -/
theorem outsAt_fst_last (c : Dev nD) (t : Fin cfg0.N) (ht : t.val % 512 = 511) :
    (outsAt0 m c t.val t.isLt).1 = acc m c t.val t.isLt := by
  have hN : cfg0.N = 512 := N_0
  obtain ⟨n, h⟩ := t
  cases n with
  | zero => exact absurd ht (by dsimp only; omega)
  | succ n =>
    have h0 : ¬(⟨n + 1, h⟩ : Fin cfg0.N).val % 512 = 0 := by dsimp only at ht ⊢; omega
    refine (congrArg Prod.fst (outsAt0_C m c ⟨n + 1, h⟩ h0 ht)).trans ?_
    dsimp only
    refine (out_C ..).trans ?_
    show step _ _ (outsAt0 m c n _).2 = step _ _ (acc m c n _)
    rw [outsAt_snd m c n]

end Cert.KernelIdeal.Hand

end
-- ==== Proof.KernelRun.lean ====
/-
  The kernel's run, read. The output's one block is written back at the last grid point only, and holds the accumulator
  after that point; its array [1,1] is that block; the host operation after the region reshapes it to the scalar result.
  So every run of the program ends with the result at the accumulator after the last point, the arguments unchanged.
-/
import proofs.«128885_j21036749815963_2_alg».proof.Proof.KernelAcc

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- The last grid point. -/
abbrev tLast : Fin cfg0.N := ⟨511, by rw [show cfg0.N = 512 from N_0]; decide⟩

/-- The accumulator after the last point, as contents of the output's [1,1] array. -/
abbrev res (c : Dev nD) : Buf (Elt F) ((c : Thread nD τ).loc main_call0_v1) := acc m c tLast.val tLast.isLt

/-- The one write-back, at the last point, writes it: block (0, 0) of a [1,1] array is the array. -/
theorem flushed_eq (c : Dev nD) (t : Fin cfg0.N) (hf : (cfg0.win 2).flush t = true) :
    (dats m 0 c).flushed 2 t = ((cfg0.win 2).blk t).view.read (Elt F) (res m c) := by
  have hN : cfg0.N = 512 := N_0
  have h511 : t.val = 511 := by have := (flush0_2 t).mp hf; have := t.isLt; omega
  obtain rfl : t = tLast := Fin.ext h511
  show (cfg0.win 2).cut (grid0.coords tLast) ((dats m 0 c).after 2 tLast) = _
  rw [after0_2, outsAt_fst_last m c tLast (by decide)]
  have hz' : (fun a => win0_2.index tLast a * main_call0_v1.ty.shape.size a) = fun _ => 0 := funext fun a => by fin_cases a <;> decide
  exact (Memref.read_access_unit_zero (Elt F) main_call0_v1 hz' (fun a => by rw [congrFun hz' a]; simp) (res m c)).symm

/-- So the output's array ends holding the accumulator after the last point. -/
theorem final_o (c : Dev nD) : (dats m 0 c).arrAt 2 cfg0.N = res m c :=
  (dats m 0 c).arrAt_eq_of_cover 2 (res m c) (flushed_eq m c) fun i =>
    ⟨tLast, (flush0_2 tLast).mpr (by decide), by
      show i ∈ ((View.whole main_call0_v1).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host operation after the region: the scalar result is the [1,1] array reshaped. -/
theorem tail_eq (c : Dev nD) :
    Pipeline.afterTail₀ cfgs (dats m) 0 (V0 m) [hostOps1] c main_v0 = shapeCast S_ (res m c) shapeCasts_S1x1_S_ := by
  unfold Pipeline.afterTail₀
  show StableHlo.after hostOps1 _ (Proc.devRef .tc main_v0) = _
  after_results
  have e := (Pipeline.withArrays_arr spec0 launch0.win.arr_inj c (V0 m c) (fun w => (dats m 0 c).arrAt w cfg0.N) 2).trans (final_o m c)
  exact congrArg (fun x => shapeCast S_ x shapeCasts_S1x1_S_) e

/-- The run, read: the result at the reshaped accumulator after the last point, the arguments unchanged. -/
theorem run : θ_run defs (onTc (τ := τ) (main (F := F))) ⟨m, fun _ => 0, ρ⟩ fun r => ∀ c : Dev nD,
      r.2.mem ((c : Thread nD τ).loc main_v0) = shapeCast S_ (res m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v0 (Pipeline.mem_restRefs_of main_v0 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.Hand

end
-- ==== Proof.KernelBlocks.lean ====
/-
  The input blocks read at an index. At grid point `t` the logits' block is rows `16384·t … 16384·t + 16383` of the
  [8388608,4] argument, and the target block is the same rows of the [8388608,1] column that the host reshape before the
  region makes of the [8388608] target argument: entry `(r, k)` of the first is the argument at `(16384·t + r, k)`, entry
  `(r, 0)` of the second the target at `16384·t + r`.
-/
import proofs.«128885_j21036749815963_2_alg».proof.Proof.KernelAcc
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ)

/-- Both input windows' block index at point `t` is `(t, 0)`: decided once over the grid. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The row of the arrays that row `r` of point `t`'s blocks is. -/
abbrev rowOf (t : Fin cfg0.N) (r : Fin 16384) : Fin 8388608 :=
  ⟨16384 * t.val + r.val, by have := t.isLt; have : cfg0.N = 512 := N_0; omega⟩

/-- The logits' block at point `t`, entry `(r, k)`: the argument at row `16384·t + r`, class `k`. -/
theorem blk0_apply (c : Dev nD) (t : Fin cfg0.N) (r : Fin 16384) (k : Fin 4) :
    blk0 m c t (ix2 r k) = m ((c : Thread nD τ).loc main_arg0) (ix2 (rowOf t r) k) := by
  show iblk m c 0 t (ix2 r k) = _
  unfold iblk
  rw [View.read_apply]
  show V m c main_arg0 _ = _
  rw [V_main_arg0]
  refine congrArg _ (funext fun a => Fin.ext ?_)
  match a with
  | ⟨0, _⟩ => show win0_0.index t 0 * 16384 + 1 * r.val = 16384 * t.val + r.val; rw [(idx0 t).1]; omega
  | ⟨1, _⟩ => show win0_0.index t 1 * 4 + 1 * k.val = k.val; rw [(idx0 t).2]; omega

/-- The column the region finds: the target argument reshaped [8388608] → [8388608,1] by the host before the region. -/
theorem V_column (c : Dev nD) :
    (V m c main_call0_v0 : S8388608x1.Idx → Elt F .f32)
      = shapeCast S8388608x1 (m ((c : Thread nD τ).loc main_arg1)) shapeCasts_S8388608_S8388608x1 := by
  show StableHlo.after hostOps0 (fun b => m (c, b)) (Proc.devRef .tc main_call0_v0) = _
  after_results
  rfl

/-- That column at `(n, 0)` is the target at `n`: the same row-major position. -/
theorem column_apply (T : S8388608.Idx → Elt F .f32) (n : Fin 8388608) :
    shapeCast S8388608x1 T shapeCasts_S8388608_S8388608x1 (ix2 n (0 : Fin 1)) = T (ix1 n) :=
  shapeCast_apply T _ (ix2 n (0 : Fin 1)) (ix1 n) (by
    rw [Shape.rowMajor_val_one, Shape.rowMajor_val_two]
    show n.val = n.val * 1 + 0
    omega)

/-- The target block at point `t`, entry `(r, 0)`: the target argument at row `16384·t + r`. -/
theorem blk1_apply (c : Dev nD) (t : Fin cfg0.N) (r : Fin 16384) :
    blk1 m c t (ix2 r (0 : Fin 1)) = m ((c : Thread nD τ).loc main_arg1) (ix1 (rowOf t r)) := by
  show iblk m c 1 t (ix2 r (0 : Fin 1)) = _
  unfold iblk
  rw [View.read_apply]
  show V m c main_call0_v0 _ = _
  rw [V_column]
  refine Eq.trans (congrArg _ (funext fun a => Fin.ext ?_)) (column_apply _ (rowOf t r))
  match a with
  | ⟨0, _⟩ => show win0_1.index t 0 * 16384 + 1 * r.val = 16384 * t.val + r.val; rw [(idx1 t).1]; omega
  | ⟨1, _⟩ => show win0_1.index t 1 * 1 + 1 * 0 = 0; rw [(idx1 t).2]

end Cert.KernelIdeal.Hand

end
-- ==== Proof.Spec.lean ====
/-
  The loss both programs compute, stated once over the extended reals and over no program.

  For a row `x` of four logits the prediction is the softmax `p j = exp (x j − M) / ∑ k, exp (x k − M)` with `M` the
  row's maximum; for a target value `t` the target distribution `q` is one of four fixed rows, chosen by whether `t` is
  0, 1, 2 or anything else; the row's loss terms are `p j · (log (p j + ε) − log (q j + ε))`, and the result is their
  sum over all 8388608 rows and 4 classes. The float words are kept as words (the same word means the same extended
  real on both sides); only 0, 1 and 2 are ever told apart.
-/
import Idealize.ShloMosaic.PureOps.Ideal
import Idealize.ShloMosaic.PureOps.Ideal.Laws
import Idealize.ShloMosaic.Lib.ValueIdx

noncomputable section

namespace Cert.RevKL

open Idealize.ShloMosaic Idealize.ShloMosaic.ValueIdx

/-- The words the programs share, as the extended reals they denote. -/
abbrev negInf : EReal := Ideal.ofBits .f32 0xFF800000#32
abbrev eps : EReal := Ideal.ofBits .f32 0x2EDBE6FF#32
abbrev hi : EReal := Ideal.ofBits .f32 0x3F666666#32
abbrev lo : EReal := Ideal.ofBits .f32 0x3DCCCCCD#32
abbrev zero : EReal := Ideal.ofBits .f32 0x00000000#32
abbrev one : EReal := Ideal.ofBits .f32 0x3F800000#32
abbrev two : EReal := Ideal.ofBits .f32 0x40000000#32

/-- A row's maximum: the fold of `max` over its four entries from `−∞`. -/
def rowMax (x : Fin 4 → EReal) : EReal := (Finset.univ : Finset (Fin 4)).fold max negInf x

/-- The exponential of an entry less the row's maximum. -/
def shifted (x : Fin 4 → EReal) (j : Fin 4) : EReal := Ideal.exp (x j - rowMax x)

/-- The softmax of a row. -/
def prob (x : Fin 4 → EReal) (j : Fin 4) : EReal := Ideal.div (shifted x j) (∑ k : Fin 4, shifted x k)

/-- Whether the target value is 0, is 1, is 2, and whether it is none of them, as one-bit words. -/
def is0 (t : EReal) : BitVec 1 := Ideal.cmp .oeq t zero
def is1 (t : EReal) : BitVec 1 := Ideal.cmp .oeq t one
def is2 (t : EReal) : BitVec 1 := Ideal.cmp .oeq t two
def isOther (t : EReal) : BitVec 1 := IntOp.xori (IntOp.ori (IntOp.ori (is0 t) (is1 t)) (is2 t)) 1#1

/-- The target distribution of a target value, class by class, by nested choices: 0 ↦ (hi, lo, 0, 0), 1 ↦ (lo, hi, 0, 0),
    2 ↦ (0, 0, hi, lo), anything else ↦ (0, 0, lo, hi). -/
def target (t : EReal) : Fin 4 → EReal :=
  ![Scalar.select (is0 t) hi (Scalar.select (is1 t) lo zero),
    Scalar.select (is0 t) lo (Scalar.select (is1 t) hi zero),
    Scalar.select (is2 t) hi (Scalar.select (isOther t) lo zero),
    Scalar.select (is2 t) lo (Scalar.select (isOther t) hi zero)]

/-- One loss term: `p · (log (p + ε) − log (q + ε))`. -/
def term (x : Fin 4 → EReal) (t : EReal) (j : Fin 4) : EReal :=
  prob x j * (Ideal.log (prob x j + eps) - Ideal.log (target t j + eps))

/-- The loss of the rows `16384 · b + r`, `r < 16384`, of one block `b < 512` of consecutive rows. -/
def blockLoss (X : (⟨2, ![8388608, 4]⟩ : Shape).Idx → EReal) (T : (⟨1, ![8388608]⟩ : Shape).Idx → EReal) (b : Fin 512) : EReal :=
  ∑ r : Fin 16384, ∑ j : Fin 4,
    term (fun k => X (ix2 (⟨16384 * b.val + r.val, by omega⟩ : Fin 8388608) k)) (T (ix1 (⟨16384 * b.val + r.val, by omega⟩ : Fin 8388608))) j

/-- The whole loss: the sum of the terms over every row and class. -/
def total (X : (⟨2, ![8388608, 4]⟩ : Shape).Idx → EReal) (T : (⟨1, ![8388608]⟩ : Shape).Idx → EReal) : EReal :=
  ∑ n : Fin 8388608, ∑ j : Fin 4, term (fun k => X (ix2 n k)) (T (ix1 n)) j

end Cert.RevKL

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.LibReduceLeading.lean ====
/-
  Sums over the leading axes of a rank-three array.

  An index of an array of extents `[A, B, C]` is its three coordinates, so a sum over all indices is a triple sum.
  Reducing such an array over its two leading axes keeps the last axis: an index reduces to `j` exactly when its last
  coordinate is `j`'s only coordinate, so the sum of the entries that reduce to `j` is the double sum, over the two
  leading coordinates, of the entries whose last coordinate is that one.
-/
import Idealize.ShloMosaic.PureOps.Ideal.Laws
import Idealize.ShloMosaic.Lib.ValueIdx

open scoped BigOperators

noncomputable section

namespace Cert.ReduceLeading

open Idealize.ShloMosaic Idealize.ShloMosaic.ValueIdx

variable {M : Type*} [AddCommMonoid M] {A B C : Nat}

/-- A rank-three index is its three coordinates. -/
def idxEquiv3 : (⟨3, ![A, B, C]⟩ : Shape).Idx ≃ Fin A × Fin B × Fin C where
  toFun i := (i 0, i 1, i 2)
  invFun p := ix3 p.1 p.2.1 p.2.2
  left_inv i := (eq_ix3 i).symm
  right_inv _ := rfl

/-- A sum over all indices of a rank-three array is the triple sum over its coordinates. -/
theorem sum_idx3 (f : (⟨3, ![A, B, C]⟩ : Shape).Idx → M) :
    ∑ i, f i = ∑ a : Fin A, ∑ b : Fin B, ∑ c : Fin C, f (ix3 a b c) := by
  rw [← Equiv.sum_comp (idxEquiv3 (A := A) (B := B) (C := C)).symm, Fintype.sum_prod_type]
  refine Finset.sum_congr rfl fun a _ => ?_
  rw [Fintype.sum_prod_type]
  rfl

/-- An index reduces, over the two leading axes, to the index with coordinate `jc` exactly when its last coordinate
    is `jc`. -/
theorem drop_lead2_eq_iff (h : (⟨3, ![A, B, C]⟩ : Shape).Reduces [0, 1] ⟨1, ![C]⟩) (a : Fin A) (b : Fin B) (c jc : Fin C) :
    h.drop (ix3 a b c) = ix1 jc ↔ c = jc := by
  have hlen : (0 : Nat) < ((⟨3, ![A, B, C]⟩ : Shape).kept [0, 1]).length :=
    Nat.lt_of_lt_of_eq Nat.zero_lt_one (by rfl)
  have hv : ((h.drop (ix3 a b c) 0 : Fin C) : Nat) = (c : Nat) :=
    h.drop_apply_val_of_eq (ix3 a b c) 0 2 hlen (by rfl)
  constructor
  · intro e
    apply Fin.ext
    have e0 : (h.drop (ix3 a b c) 0 : Fin C) = jc := congrFun e 0
    rw [← e0]
    exact hv.symm
  · intro e
    funext d
    match d with
    | ⟨0, _⟩ =>
      apply Fin.ext
      exact hv.trans (congrArg Fin.val e)

/-- The sum of the entries that reduce to the index with coordinate `jc` over the two leading axes is the double sum
    over those axes of the entries whose last coordinate is `jc`. -/
theorem sum_filter_drop_lead2 (h : (⟨3, ![A, B, C]⟩ : Shape).Reduces [0, 1] ⟨1, ![C]⟩)
    (x : (⟨3, ![A, B, C]⟩ : Shape).Idx → M) (jc : Fin C) :
    ∑ i ∈ Finset.univ.filter (fun i => h.drop i = ix1 jc), x i = ∑ a : Fin A, ∑ b : Fin B, x (ix3 a b jc) := by
  classical
  rw [Finset.sum_filter, sum_idx3]
  refine Finset.sum_congr rfl fun a _ => Finset.sum_congr rfl fun b _ => ?_
  have hc : ∀ c : Fin C, (h.drop (ix3 a b c) = ix1 jc) ↔ c = jc := fun c => drop_lead2_eq_iff h a b c jc
  simp only [hc]
  rw [Finset.sum_ite_eq' Finset.univ jc fun c => x (ix3 a b c)]
  simp

/-- So the exact reduction by addition over the two leading axes, at the index with coordinate `jc`, is that double
    sum. -/
theorem reduceAdd_lead2 (h : (⟨3, ![A, B, C]⟩ : Shape).Reduces [0, 1] ⟨1, ![C]⟩)
    (x : (⟨3, ![A, B, C]⟩ : Shape).Idx → EReal) (jc : Fin C) :
    Ideal.reduceAdd h x (ix1 jc) = ∑ a : Fin A, ∑ b : Fin B, x (ix3 a b jc) :=
  sum_filter_drop_lead2 h x jc

end Cert.ReduceLeading

end
-- ==== Proof.KernelPay.lean ====
/-
  The arithmetic of the kernel's body at the exact extended-real instance.

  One block holds 16384 rows of four logits `x0` and a column of 16384 target values `x1`. The body computes, row by
  row, the softmax `p` of the logits (the row's maximum, the shifted exponentials, their sum, the quotient), the four
  columns of the target distribution `q` (three comparisons of the target value with 0, 1 and 2, "none of the three",
  and nested choices between the words 0.9, 0.1 and 0), the terms `p · (log (p + ε) − log (q + ε))`, their sum over the
  whole block, and stores the accumulator plus that sum. Each operation is read at an index; nothing is evaluated.
-/
import proofs.«128885_j21036749815963_2_alg».proof.Proof.Gen.KernelIdeal.Skeleton
import proofs.«128885_j21036749815963_2_alg».proof.Proof.Spec
import proofs.«128885_j21036749815963_2_alg».proof.Proof.LibKeepdims
import proofs.«128885_j21036749815963_2_alg».proof.Proof.LibReduceLeading
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! ## Pointwise operations the library does not name, read at an index -/

/-- An exponential at an index is the exponential of the element. -/
theorem exp_apply {s : Shape} {φ : FTy} (a : FVec Ideal s φ) (i : s.Idx) : exp a i = Ideal.exp (a i) := rfl
/-- A logarithm at an index is the logarithm of the element. -/
theorem log_apply {s : Shape} {φ : FTy} (a : FVec Ideal s φ) (i : s.Idx) : log a i = Ideal.log (a i) := rfl

/-! ## The softmax of a row -/

/-- The index a reduction over the class axis inserts class `k` into row `r` at is `(r, k)`. -/
theorem lift_row (h : S16384x4.Reduces [1] S16384) (r : Fin 16384) (k : Fin 4) : h.lift (ix1 r) k = ix2 r k := by
  funext a
  match a with
  | ⟨0, _⟩ => exact Fin.ext rfl
  | ⟨1, _⟩ => exact Fin.ext rfl

/-- A vector of one number per row, kept as a column and copied along the classes, reads the row's number. -/
theorem column_apply (v : FVec Ideal S16384 .f32) (h1 : S16384.ShapeCasts S16384x1) (h2 : S16384x1.Broadcasts S16384x4)
    (r : Fin 16384) (j : Fin 4) :
    broadcastTo S16384x4 (shapeCast S16384x1 v h1) h2 (ix2 r j) = v (ix1 r) :=
  (Keepdims.broadcastTo_a1_ab_apply _ h2 r j (0 : Fin 1)).trans (Keepdims.shapeCast_a_a1_apply v h1 r (0 : Fin 1))

/-- The maximum over the classes, from the word of `−∞`, is the row's maximum. -/
theorem rowMax_apply (src : FVec Ideal S16384x4 .f32) (h : S16384x4.Reduces [1] S16384) (hφ : FKind.Formats .f32)
    (hacc : (0xFF800000#32 : BitVec 32) = FKind.maximumf.neutral .f32 hφ) (r : Fin 16384) :
    multiReduction .maximumf [1] S16384 src 0xFF800000#32 h hφ hacc (ix1 r) = Cert.RevKL.rowMax (fun k => src (ix2 r k)) := by
  refine (Ideal.multiReduction_maximumf_single src 0xFF800000#32 h hφ hacc (ix1 r)).trans ?_
  unfold Cert.RevKL.rowMax
  refine congrArg (fun f : Fin 4 → EReal => (Finset.univ : Finset (Fin 4)).fold max (Ideal.ofBits .f32 0xFF800000#32) f) ?_
  funext k
  exact congrArg src (lift_row h r k)

/-- The sum over the classes is the sum of the row's four entries. -/
theorem rowSum_apply (src : FVec Ideal S16384x4 .f32) (h : S16384x4.Reduces [1] S16384) (hφ : FKind.Formats .f32)
    (hacc : (0x00000000#32 : BitVec 32) = FKind.add.neutral .f32 hφ) (r : Fin 16384) :
    multiReduction .add [1] S16384 src 0x00000000#32 h hφ hacc (ix1 r) = ∑ k : Fin 4, src (ix2 r k) := by
  refine (Ideal.multiReduction_add_single src 0x00000000#32 h hφ hacc (ix1 r)).trans ?_
  exact Finset.sum_congr rfl fun k _ => congrArg src (lift_row h r k)

/-- The row maxima, kept as a column and copied along the classes. -/
def rowMaxCols (x0 : FVec Ideal S16384x4 .f32) : FVec Ideal S16384x4 .f32 :=
  broadcastTo S16384x4 (shapeCast S16384x1
    (multiReduction (F := Ideal) (φ := .f32) .maximumf [1] S16384 x0 0xFF800000#32 reduces_S16384x4_S16384 (.inl rfl) rfl)
    shapeCasts_S16384_S16384x1) broadcasts_S16384x1_S16384x4

/-- The exponentials of the logits less their row's maximum. -/
def shiftedExp (x0 : FVec Ideal S16384x4 .f32) : FVec Ideal S16384x4 .f32 := exp (subf x0 (rowMaxCols x0))

/-- Their row sums, kept as a column and copied along the classes. -/
def rowSumCols (x0 : FVec Ideal S16384x4 .f32) : FVec Ideal S16384x4 .f32 :=
  broadcastTo S16384x4 (shapeCast S16384x1
    (multiReduction (F := Ideal) (φ := .f32) .add [1] S16384 (shiftedExp x0) 0x00000000#32 reduces_S16384x4_S16384 (.inl rfl) rfl)
    shapeCasts_S16384_S16384x1) broadcasts_S16384x1_S16384x4

/-- The first payload is the quotient of the shifted exponentials by their row sums: its operations, one by one. -/
theorem pay4_eq (x0 : Vec Ideal S16384x4 .f32) : k0_pay4 (F := Ideal) x0 = divf (shiftedExp x0) (rowSumCols x0) := rfl

theorem rowMaxCols_apply (x0 : FVec Ideal S16384x4 .f32) (r : Fin 16384) (k : Fin 4) :
    rowMaxCols x0 (ix2 r k) = Cert.RevKL.rowMax (fun k => x0 (ix2 r k)) :=
  (column_apply _ _ _ r k).trans (rowMax_apply x0 _ _ _ r)

theorem shiftedExp_apply (x0 : FVec Ideal S16384x4 .f32) (r : Fin 16384) (k : Fin 4) :
    shiftedExp x0 (ix2 r k) = Cert.RevKL.shifted (fun k => x0 (ix2 r k)) k := by
  unfold shiftedExp Cert.RevKL.shifted
  rw [exp_apply, subf_apply, rowMaxCols_apply]

theorem rowSumCols_apply (x0 : FVec Ideal S16384x4 .f32) (r : Fin 16384) (j : Fin 4) :
    rowSumCols x0 (ix2 r j) = ∑ k : Fin 4, Cert.RevKL.shifted (fun k => x0 (ix2 r k)) k :=
  (column_apply _ _ _ r j).trans
    ((rowSum_apply (shiftedExp x0) _ _ _ r).trans (Finset.sum_congr rfl fun k _ => shiftedExp_apply x0 r k))

/-- The first payload is the softmax: at row `r` and class `j`, the probability of class `j` among the row's logits. -/
theorem pay4_apply (x0 : Vec Ideal S16384x4 .f32) (r : Fin 16384) (j : Fin 4) :
    k0_pay4 (F := Ideal) x0 (ix2 r j) = Cert.RevKL.prob (fun k => x0 (ix2 r k)) j := by
  rw [pay4_eq, divf_apply, shiftedExp_apply, rowSumCols_apply]
  rfl

/-! ## The comparisons and the target columns -/

/-- The target column, cast to its own shape, is itself. -/
theorem pay3_eq (x1 : Vec Ideal S16384x1 .f32) : k0_pay3 (F := Ideal) x1 = x1 :=
  shapeCast_self _ _

/-- "The target value is 0", row by row. -/
theorem pay5_apply (x1 : Vec Ideal S16384x1 .f32) (i : S16384x1.Idx) : k0_pay5 (F := Ideal) x1 i = Cert.RevKL.is0 (x1 i) := by
  show Ideal.cmp .oeq (k0_pay3 (F := Ideal) x1 i) _ = _
  rw [pay3_eq]; rfl

/-- "The target value is 1", row by row. -/
theorem pay6_apply (x1 : Vec Ideal S16384x1 .f32) (i : S16384x1.Idx) : k0_pay6 (F := Ideal) x1 i = Cert.RevKL.is1 (x1 i) := by
  show Ideal.cmp .oeq (k0_pay3 (F := Ideal) x1 i) _ = _
  rw [pay3_eq]; rfl

/-- "The target value is 2", row by row. -/
theorem pay7_apply (x1 : Vec Ideal S16384x1 .f32) (i : S16384x1.Idx) : k0_pay7 (F := Ideal) x1 i = Cert.RevKL.is2 (x1 i) := by
  show Ideal.cmp .oeq (k0_pay3 (F := Ideal) x1 i) _ = _
  rw [pay3_eq]; rfl

/-- "The target value is none of 0, 1, 2", row by row. -/
theorem pay8_apply (x1 : Vec Ideal S16384x1 .f32) (i : S16384x1.Idx) : k0_pay8 (F := Ideal) x1 i = Cert.RevKL.isOther (x1 i) := by
  show IntOp.xori (IntOp.ori (IntOp.ori (k0_pay5 (F := Ideal) x1 i) (k0_pay6 (F := Ideal) x1 i)) (k0_pay7 (F := Ideal) x1 i)) 1#1 = _
  rw [pay5_apply, pay6_apply, pay7_apply]; rfl

/-- The column of class 0 of the target distribution. -/
theorem pay9_apply (x1 : Vec Ideal S16384x1 .f32) (i : S16384x1.Idx) :
    k0_pay9 (F := Ideal) x1 i = Cert.RevKL.target (x1 i) 0 := by
  show Scalar.select (k0_pay5 (F := Ideal) x1 i) Cert.RevKL.hi (Scalar.select (k0_pay6 (F := Ideal) x1 i) Cert.RevKL.lo Cert.RevKL.zero) = _
  rw [pay5_apply, pay6_apply]; rfl

/-- The column of class 1 of the target distribution. -/
theorem pay10_apply (x1 : Vec Ideal S16384x1 .f32) (i : S16384x1.Idx) :
    k0_pay10 (F := Ideal) x1 i = Cert.RevKL.target (x1 i) 1 := by
  show Scalar.select (k0_pay5 (F := Ideal) x1 i) Cert.RevKL.lo (Scalar.select (k0_pay6 (F := Ideal) x1 i) Cert.RevKL.hi Cert.RevKL.zero) = _
  rw [pay5_apply, pay6_apply]; rfl

/-- The inner choice of the column of class 2: 0.1 where the target value is none of 0, 1, 2, else 0. -/
theorem pay11_apply (x1 : Vec Ideal S16384x1 .f32) (i : S16384x1.Idx) :
    k0_pay11 (F := Ideal) x1 i = Scalar.select (Cert.RevKL.isOther (x1 i)) Cert.RevKL.lo Cert.RevKL.zero := by
  show Scalar.select (k0_pay8 (F := Ideal) x1 i) Cert.RevKL.lo Cert.RevKL.zero = _
  rw [pay8_apply]

/-! ## The four target columns side by side -/

/-- Four columns put side by side read, at row `r` and class `j`, column `j` at row `r`. -/
theorem concat4_apply (c0 c1 c2 c3 : FVec Ideal S16384x1 .f32)
    (h : Shape.Concatenates [S16384x1, S16384x1, S16384x1, S16384x1] S16384x4 1) (r : Fin 16384) (j : Fin 4) :
    concatenate S16384x4 1 [⟨S16384x1, c0⟩, ⟨S16384x1, c1⟩, ⟨S16384x1, c2⟩, ⟨S16384x1, c3⟩] h (ix2 r j)
      = (![c0, c1, c2, c3] j) (ix2 r (0 : Fin 1)) :=
  concatenate_ofFn_unit_apply (t := S16384x4) (s₁ := S16384x1) 1 (fun n : Fin 4 => ![c0, c1, c2, c3] n) h rfl rfl (ix2 r j) j rfl
    (ix2 r (0 : Fin 1)) (fun b hb => match b, hb with
      | ⟨0, _⟩, _ => rfl
      | ⟨1, _⟩, hb => absurd rfl hb)

/-- The column of class 2: 0.9 where the target value is 2, else the inner choice. -/
def col2 (x1 : FVec Ideal S16384x1 .f32) : FVec Ideal S16384x1 .f32 :=
  select (k0_pay7 (F := Ideal) x1) (broadcast S16384x1 (Scalar.ofBits (F := Ideal) .f32 0x3F666666#32)) (k0_pay11 (F := Ideal) x1)

/-- The column of class 3: 0.1 where the target value is 2, else 0.9 where it is none of 0, 1, 2, else 0. -/
def col3 (x1 : FVec Ideal S16384x1 .f32) : FVec Ideal S16384x1 .f32 :=
  select (k0_pay7 (F := Ideal) x1) (broadcast S16384x1 (Scalar.ofBits (F := Ideal) .f32 0x3DCCCCCD#32))
    (select (k0_pay8 (F := Ideal) x1) (broadcast S16384x1 (Scalar.ofBits (F := Ideal) .f32 0x3F666666#32))
      (broadcast S16384x1 (Scalar.ofBits (F := Ideal) .f32 0x00000000#32)))

theorem col2_apply (x1 : FVec Ideal S16384x1 .f32) (i : S16384x1.Idx) : col2 x1 i = Cert.RevKL.target (x1 i) 2 := by
  unfold col2
  rw [select_apply, pay7_apply, pay11_apply, broadcast_apply]
  rfl

theorem col3_apply (x1 : FVec Ideal S16384x1 .f32) (i : S16384x1.Idx) : col3 x1 i = Cert.RevKL.target (x1 i) 3 := by
  unfold col3
  rw [select_apply, select_apply, pay7_apply, pay8_apply, broadcast_apply, broadcast_apply, broadcast_apply]
  rfl

/-- The target distribution, its four columns side by side. -/
def targetCols (x1 : FVec Ideal S16384x1 .f32) : FVec Ideal S16384x4 .f32 :=
  concatenate S16384x4 1 [⟨S16384x1, k0_pay9 (F := Ideal) x1⟩, ⟨S16384x1, k0_pay10 (F := Ideal) x1⟩, ⟨S16384x1, col2 x1⟩, ⟨S16384x1, col3 x1⟩]
    concatenates_S16384x1_S16384x1_S16384x1_S16384x1_S16384x4_d1

/-- At row `r` and class `j` it is the target distribution of the row's target value at class `j`. -/
theorem targetCols_apply (x1 : FVec Ideal S16384x1 .f32) (r : Fin 16384) (j : Fin 4) :
    targetCols x1 (ix2 r j) = Cert.RevKL.target (x1 (ix2 r (0 : Fin 1))) j := by
  unfold targetCols
  rw [concat4_apply]
  match j with
  | ⟨0, _⟩ => exact pay9_apply x1 _
  | ⟨1, _⟩ => exact pay10_apply x1 _
  | ⟨2, _⟩ => exact col2_apply x1 _
  | ⟨3, _⟩ => exact col3_apply x1 _

/-! ## The loss terms and their sum over the block -/

/-- The loss terms of a block of predictions `p` and targets `q`: `p · (log (p + ε) − log (q + ε))`. -/
def terms (p q : FVec Ideal S16384x4 .f32) : FVec Ideal S16384x4 .f32 :=
  mulf p (subf (log (addf p (broadcast S16384x4 (Scalar.ofBits (F := Ideal) .f32 0x2EDBE6FF#32))))
    (log (addf q (broadcast S16384x4 (Scalar.ofBits (F := Ideal) .f32 0x2EDBE6FF#32)))))

theorem terms_apply (x0 : Vec Ideal S16384x4 .f32) (x1 : Vec Ideal S16384x1 .f32) (r : Fin 16384) (j : Fin 4) :
    terms (k0_pay4 (F := Ideal) x0) (targetCols x1) (ix2 r j)
      = Cert.RevKL.term (fun k => x0 (ix2 r k)) (x1 (ix2 r (0 : Fin 1))) j := by
  unfold terms Cert.RevKL.term
  rw [mulf_apply, subf_apply, log_apply, log_apply, addf_apply, addf_apply, pay4_apply, targetCols_apply]
  rfl

/-- An element taken at a position of a reshaped vector is an element of the vector. -/
theorem extractAt_shapeCast {s t : Shape} {α : Type} (x : s.Idx → α) (h : s.ShapeCasts t) (pos : Fin t.rank → Nat)
    (hp : ∀ a, pos a < t.size a) :
    extractAt pos (shapeCast t x h) hp = x (Shape.reshapeEquiv h (fun a => ⟨pos a, hp a⟩)) := rfl

/-- The sum of a block of terms, as the body takes it: the block under a leading unit axis, summed over its two other axes,
    the one number taken out. -/
def blockSum (t : FVec Ideal S16384x4 .f32) : EReal :=
  extractAt ![0, 0, 0] (shapeCast S1x1x1
    (multiReduction (F := Ideal) (φ := .f32) .add [1, 2] S1 (shapeCast S1x16384x4 t shapeCasts_S16384x4_S1x16384x4) 0x00000000#32
      reduces_S1x16384x4_S1 (.inl rfl) rfl) shapeCasts_S1_S1x1x1) inpos_S1x1x1_p0_0_0

/-- It is the double sum over rows and classes. -/
theorem blockSum_eq (t : FVec Ideal S16384x4 .f32) : blockSum t = ∑ r : Fin 16384, ∑ j : Fin 4, t (ix2 r j) := by
  unfold blockSum
  rw [extractAt_shapeCast]
  refine (Ideal.multiReduction_add_total (shapeCast S1x16384x4 t shapeCasts_S16384x4_S1x16384x4) 0x00000000#32
    reduces_S1x16384x4_S1 (by decide) (.inl rfl) rfl _).trans ?_
  rw [Cert.ReduceLeading.sum_idx3, Fintype.sum_unique]
  exact Finset.sum_congr rfl fun r _ => Finset.sum_congr rfl fun j _ => shapeCast_ab_1ab_apply t _ _ r j

/-! ## The two stores of the accumulator -/

/-- The body's store, its operations one by one: the accumulator plus the block's sum of terms. -/
theorem pay1_eq (x0 : Vec Ideal S16384x4 .f32) (x1 : Vec Ideal S16384x1 .f32) (acc : Vec Ideal S1x1 .f32) :
    k0_pay1 (F := Ideal) (k0_pay4 x0) (k0_pay7 x1) (k0_pay8 x1) (k0_pay9 x1) (k0_pay10 x1) (k0_pay11 x1) (Scalar.ofBits .f32 0x3F666666#32) acc
      = shapeCast S1x1 (addf (acc : FVec Ideal S1x1 .f32) (broadcast S1x1 (blockSum (terms (k0_pay4 (F := Ideal) x0) (targetCols x1)))))
          shapeCasts_S1x1_S1x1 := rfl

/-- THE BODY'S STORE: the accumulator plus the loss of the block's rows. -/
theorem pay1_apply (x0 : Vec Ideal S16384x4 .f32) (x1 : Vec Ideal S16384x1 .f32) (acc : Vec Ideal S1x1 .f32) (y : S1x1.Idx) :
    k0_pay1 (F := Ideal) (k0_pay4 x0) (k0_pay7 x1) (k0_pay8 x1) (k0_pay9 x1) (k0_pay10 x1) (k0_pay11 x1) (Scalar.ofBits .f32 0x3F666666#32) acc y
      = acc y + ∑ r : Fin 16384, ∑ j : Fin 4, Cert.RevKL.term (fun k => x0 (ix2 r k)) (x1 (ix2 r (0 : Fin 1))) j := by
  rw [pay1_eq, shapeCast_self, addf_apply, broadcast_apply, blockSum_eq]
  exact congrArg (acc y + ·) (Finset.sum_congr rfl fun r _ => Finset.sum_congr rfl fun j _ => terms_apply x0 x1 r j)

/-- The first point's store, its operations one by one: the zero word everywhere. -/
theorem pay2_eq : k0_pay2 (F := Ideal) = shapeCast S1x1 (broadcast S1x1 (Ideal.ofBits .f32 0x00000000#32)) shapeCasts_S1x1_S1x1 := rfl

/-- THE FIRST POINT'S STORE: zero. -/
theorem pay2_apply (y : S1x1.Idx) : k0_pay2 (F := Ideal) y = 0 := by
  rw [pay2_eq, shapeCast_self, broadcast_apply, Ideal.ofBits_zero_f32]

end Cert.KernelIdeal.Pay

end
-- ==== Proof.SpecBlocks.lean ====
/-
  The whole loss is the sum of the 512 block losses: a sum over the rows `n < 8388608 = 512 · 16384` is the double sum over
  the blocks `b < 512` and the positions `r < 16384` of the summand at `16384·b + r`. Addition on the extended reals is
  commutative and associative, so no finiteness is used.
-/
import proofs.«128885_j21036749815963_2_alg».proof.Proof.Spec

noncomputable section

namespace Cert.RevKL

open Idealize.ShloMosaic Idealize.ShloMosaic.ValueIdx

/-- A sum over `Fin 8388608` as the double sum over 512 blocks of 16384 consecutive indices. -/
theorem sum_blocks {M : Type*} [AddCommMonoid M] (f : Fin 8388608 → M) :
    ∑ n : Fin 8388608, f n = ∑ b : Fin 512, ∑ r : Fin 16384, f ⟨16384 * b.val + r.val, by omega⟩ := by
  have h := Fintype.sum_equiv (finProdFinEquiv (m := 512) (n := 16384))
    (fun p : Fin 512 × Fin 16384 => f ⟨16384 * p.1.val + p.2.val, by omega⟩)
    (fun n : Fin (512 * 16384) => f ⟨n.val, by omega⟩)
    (fun p => congrArg f (Fin.ext (by
      show 16384 * p.1.val + p.2.val = p.2.val + 16384 * p.1.val
      omega)))
  rw [Fintype.sum_prod_type] at h
  exact h.symm

/-- The whole loss is the sum of the block losses. -/
theorem total_eq_blocks (X : (⟨2, ![8388608, 4]⟩ : Shape).Idx → EReal) (T : (⟨1, ![8388608]⟩ : Shape).Idx → EReal) :
    total X T = ∑ b : Fin 512, blockLoss X T b :=
  sum_blocks fun n => ∑ j : Fin 4, term (fun k => X (ix2 n k)) (T (ix1 n)) j

end Cert.RevKL

end
-- ==== Proof.KernelValue.lean ====
/-
  The kernel's value at the exact instance. One grid point's store into the accumulator is "the accumulator it finds plus
  the loss of the point's block" (the body's arithmetic read at an index), a block's entries are the arguments' entries at
  the rows `16384·t + r`, so after point `n` the accumulator holds the sum of the block losses of the blocks `0 … n`, in
  point order; after the last point that is the sum of all 512 block losses, which is the whole loss. The scalar result is
  the [1,1] output array reshaped, hence the whole loss of the arguments.
-/
import proofs.«128885_j21036749815963_2_alg».proof.Proof.KernelRun
import proofs.«128885_j21036749815963_2_alg».proof.Proof.KernelBlocks
import proofs.«128885_j21036749815963_2_alg».proof.Proof.KernelPay
import proofs.«128885_j21036749815963_2_alg».proof.Proof.SpecBlocks

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The two argument arrays as the program is launched with them. -/
abbrev argX (c : Dev nD) : S8388608x4.Idx → EReal := m ((c : Thread nD τ).loc main_arg0)
abbrev argT (c : Dev nD) : S8388608.Idx → EReal := m ((c : Thread nD τ).loc main_arg1)

/-- The block of the specification that grid point `t` works on. -/
abbrev blockOf (t : Fin cfg0.N) : Fin 512 := ⟨t.val, by have := t.isLt; have : cfg0.N = 512 := N_0; omega⟩

/-- The loss of point `t`'s two input blocks is the specification's block loss of the arguments at block `t`: each
    block entry is the argument's entry at row `16384·t + r`. -/
theorem blockTerm (c : Dev nD) (t : Fin cfg0.N) :
    (∑ r : Fin 16384, ∑ j : Fin 4, Cert.RevKL.term (fun k => blk0 m c t (ix2 r k)) (blk1 m c t (ix2 r (0 : Fin 1))) j)
      = Cert.RevKL.blockLoss (argX m c) (argT m c) (blockOf t) := by
  unfold Cert.RevKL.blockLoss
  refine Finset.sum_congr rfl fun r _ => Finset.sum_congr rfl fun j _ => ?_
  have e0 : (fun k => blk0 m c t (ix2 r k)) = fun k => argX m c (ix2 (rowOf t r) k) := funext fun k => blk0_apply m c t r k
  have e1 : blk1 m c t (ix2 r (0 : Fin 1)) = argT m c (ix1 (rowOf t r)) := blk1_apply m c t r
  exact congrArg₂ (fun x y => Cert.RevKL.term x y j) e0 e1

/-- The accumulator after point `n` holds the sum of the block losses of the blocks `0 … n`: each point adds its block's
    loss to what it finds, and the first point finds zero. -/
theorem acc_apply (c : Dev nD) : ∀ (n : ℕ) (h : n < cfg0.N) (y : S1x1.Idx),
    acc m c n h y = ∑ b : Fin (n + 1), Cert.RevKL.blockLoss (argX m c) (argT m c) (blockOf ⟨b.val, by have := b.isLt; omega⟩)
  | 0, h, y => by
    refine (Cert.KernelIdeal.Pay.pay1_apply (blk0 m c ⟨0, h⟩) (blk1 m c ⟨0, h⟩) (k0_pay2 (F := Ideal)) y).trans ?_
    rw [Cert.KernelIdeal.Pay.pay2_apply, zero_add, blockTerm, Fin.sum_univ_one]
    rfl
  | n + 1, h, y => by
    refine (Cert.KernelIdeal.Pay.pay1_apply (blk0 m c ⟨n + 1, h⟩) (blk1 m c ⟨n + 1, h⟩) (acc m c n (Nat.lt_of_succ_lt h)) y).trans ?_
    rw [acc_apply c n (Nat.lt_of_succ_lt h) y, blockTerm]
    exact (Fin.sum_univ_castSucc (fun b : Fin (n + 1 + 1) =>
      Cert.RevKL.blockLoss (argX m c) (argT m c) (blockOf ⟨b.val, by have := b.isLt; omega⟩))).symm

/-- The accumulator after the last point is the whole loss. -/
theorem res_apply (c : Dev nD) (y : S1x1.Idx) : res m c y = Cert.RevKL.total (argX m c) (argT m c) := by
  refine (acc_apply m c tLast.val tLast.isLt y).trans ?_
  rw [Cert.RevKL.total_eq_blocks]

/-- The scalar result: the [1,1] array reshaped, at its one index. -/
theorem result_eq (c : Dev nD) :
    shapeCast S_ (res m c) shapeCasts_S1x1_S_ = fun _ => Cert.RevKL.total (argX m c) (argT m c) := by
  funext j
  refine (shapeCast_apply (res m c) shapeCasts_S1x1_S_ j (ix2 (0 : Fin 1) (0 : Fin 1)) ?_).trans (res_apply m c _)
  have h1 : (S_.rowMajor j).val < 1 := (S_.rowMajor j).isLt
  have h2 : (S1x1.rowMajor (ix2 (0 : Fin 1) (0 : Fin 1))).val < 1 := (S1x1.rowMajor _).isLt
  show (S1x1.rowMajor (ix2 (0 : Fin 1) (0 : Fin 1))).val = (S_.rowMajor j).val
  omega

/-- The kernel's run at the exact instance: the result is the whole loss of the arguments, which end unchanged. -/
theorem run_value : θ_run defs (onTc (τ := τ) (main (F := Ideal))) ⟨m, fun _ => 0, ρ⟩ fun r => ∀ c : Dev nD,
      r.2.mem ((c : Thread nD τ).loc main_v0) = (fun _ => Cert.RevKL.total (argX m c) (argT m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (run (F := Ideal) m ρ)

end Cert.KernelIdeal.Hand

end
-- ==== Proof.RefTerm.lean ====
/-
  The reference's result as one function of its two argument arrays: the host operations of its entry point composed
  in program order, every intermediate array named after the program value it is. The softmax of the rows of `X`
  (row maximum, shifted exponentials, row sum, quotient), the row of the 4×4 target table selected by the target value
  (the index 0, 1, 2 or 3 by three comparisons, then a gather of that row), and the sum over every row and class of
  `p · (log (p + ε) − log (q + ε))`.
-/
import proofs.«128885_j21036749815963_2_alg».proof.ReferenceIdeal
import proofs.«128885_j21036749815963_2_alg».proof.Proof.Gen.ReferenceIdeal

noncomputable section

namespace Cert.ReferenceIdeal.Hand

open Idealize.ShloMosaic Cert.ReferenceIdeal Cert.ReferenceIdeal.Facts₀

variable {F : FTy → Type} [FloatOps F] [Cert.ReferenceIdeal.Facts]

/-- The 4×4 table of target distributions: row `r` is the distribution of target class `r`. -/
def table : FVec F S4x4 .f32 := fun i => FloatOps.ofBits .f32 (lit0 (S4x4.rowMajor i))

/-- The softmax of the rows of `X`: the program's value `%10`. -/
def probs (X : FVec F S8388608x4 .f32) : FVec F S8388608x4 .f32 :=
  let v0 : FVec F S8388608 .f32 := Host.reduce FloatOps.maximumf X (constant S_ .f32 0xFF800000#32) reducesTo_S8388608x4_S8388608_d1 h_S_
  let v1 : FVec F S8388608 .f32 := broadcastInDim S8388608 ![] bcast_S_S8388608 (constant S_ .f32 0xFF800000#32)
  let v2 : FVec F S8388608 .f32 := maximumf v1 v0
  let v3 : FVec F S8388608x1 .f32 := broadcastInDim S8388608x1 ![0] bcast_S8388608_S8388608x1_0 v2
  let v4 : FVec F S8388608x4 .f32 := broadcastInDim S8388608x4 ![0, 1] bcast_S8388608x1_S8388608x4_0_1 v3
  let v5 : FVec F S8388608x4 .f32 := subf X v4
  let v6 : FVec F S8388608x4 .f32 := Host.exp v5
  let v7 : FVec F S8388608 .f32 := Host.reduceAdd v6 (constant S_ .f32 0x00000000#32) reducesTo_S8388608x4_S8388608_d1 h_S_
  let v8 : FVec F S8388608x1 .f32 := broadcastInDim S8388608x1 ![0] bcast_S8388608_S8388608x1_0 v7
  let v9 : FVec F S8388608x4 .f32 := broadcastInDim S8388608x4 ![0, 1] bcast_S8388608x1_S8388608x4_0_1 v8
  Host.divf v6 v9

/-- The table row each target value selects, as an index word per row: the program's value `%24`. -/
def rowIndex (T : FVec F S8388608 .f32) : IVec S8388608 32 :=
  let v11 : FVec F S8388608 .f32 := broadcastInDim S8388608 ![] bcast_S_S8388608 (constant S_ .f32 0x00000000#32)
  let v12 : IVec S8388608 1 := cmpf .oeq T v11
  let v13 : FVec F S8388608 .f32 := broadcastInDim S8388608 ![] bcast_S_S8388608 (constant S_ .f32 0x3F800000#32)
  let v14 : IVec S8388608 1 := cmpf .oeq T v13
  let v15 : FVec F S8388608 .f32 := broadcastInDim S8388608 ![] bcast_S_S8388608 (constant S_ .f32 0x40000000#32)
  let v16 : IVec S8388608 1 := cmpf .oeq T v15
  let w0 : IVec S8388608 32 := broadcastInDim S8388608 ![] bcast_S_S8388608 (constantI S_ 32 2#32)
  let w1 : IVec S8388608 32 := broadcastInDim S8388608 ![] bcast_S_S8388608 (constantI S_ 32 3#32)
  let v17 : IVec S8388608 32 := select v16 w0 w1
  let u0 : IVec S8388608 32 := broadcastInDim S8388608 ![] bcast_S_S8388608 (constantI S_ 32 1#32)
  let v18 : IVec S8388608 32 := select v14 u0 v17
  let z0 : IVec S8388608 32 := broadcastInDim S8388608 ![] bcast_S_S8388608 (constantI S_ 32 0#32)
  let v19 : IVec S8388608 32 := select v12 z0 v18
  let v20 : IVec S8388608 32 := broadcastInDim S8388608 ![] bcast_S_S8388608 (constantI S_ 32 0#32)
  let v21 : IVec S8388608 1 := cmpi .slt v19 v20
  let v22 : IVec S8388608 32 := broadcastInDim S8388608 ![] bcast_S_S8388608 (constantI S_ 32 4#32)
  let v23 : IVec S8388608 32 := addi v19 v22
  select v21 v23 v19

/-- The target distribution of every row: the gather of the table's rows at the row indices, the program's value `%26`. -/
def targets (T : FVec F S8388608 .f32) : FVec F S8388608x4 .f32 :=
  let v25 : IVec S8388608x1 32 := broadcastInDim S8388608x1 ![0] bcast_S8388608_S8388608x1_0 (rowIndex (F := F) T)
  Host.gather gather_S4x4_S8388608x1_S8388608x4_1_0_n_n_0_1_14 (table (F := F)) v25

/-- The loss term of every row and class, `p · (log (p + ε) − log (q + ε))`: the program's value `%34`. -/
def terms (X : FVec F S8388608x4 .f32) (T : FVec F S8388608 .f32) : FVec F S8388608x4 .f32 :=
  let v10 : FVec F S8388608x4 .f32 := probs X
  let v26 : FVec F S8388608x4 .f32 := targets T
  let v27 : FVec F S8388608x4 .f32 := broadcastInDim S8388608x4 ![] bcast_S_S8388608x4 (constant S_ .f32 0x2EDBE6FF#32)
  let v28 : FVec F S8388608x4 .f32 := addf v10 v27
  let v29 : FVec F S8388608x4 .f32 := Host.log v28
  let v30 : FVec F S8388608x4 .f32 := broadcastInDim S8388608x4 ![] bcast_S_S8388608x4 (constant S_ .f32 0x2EDBE6FF#32)
  let v31 : FVec F S8388608x4 .f32 := addf v26 v30
  let v32 : FVec F S8388608x4 .f32 := Host.log v31
  let v33 : FVec F S8388608x4 .f32 := subf v29 v32
  mulf v10 v33

/-- The reference's result: the sum of the loss terms over every row and class, the program's value `%35`. -/
def result (X : FVec F S8388608x4 .f32) (T : FVec F S8388608 .f32) : FVec F S_ .f32 :=
  Host.reduceAdd (terms X T) (constant S_ .f32 0x00000000#32) reducesTo_S8388608x4_S_d0_1 h_S_

end Cert.ReferenceIdeal.Hand

end
-- ==== Proof.RefRun.lean ====
/-
  The reference's run. Its entry point is a straight line of 56 host operations once the three calls of the
  outlined select functions are replaced by their bodies over each call's own buffers: the list `ops`. Every weakly
  fair execution of that line terminates with each buffer at the fold of the operations' results over the launch
  contents; read at the result buffer, the fold is the composed term `result` of the two argument arrays, and the
  argument buffers are written by no operation.
-/
import proofs.«128885_j21036749815963_2_alg».proof.Proof.RefTerm
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- The entry point's 56 operations, in program order; the operations of a called function stand at the call,
    over the call's buffer record. -/
abbrev ops : List (HloOp τ sig (Elt F)) :=
  [ nullary main_cst (fun i => FloatOps.ofBits .f32 (lit0 (S4x4.rowMajor i))),
    nullary main_cst_0 (constant S_ .f32 0xFF800000#32),
    binary main_arg0 main_cst_0 main_v0 ((fun x v => Host.reduce FloatOps.maximumf x v reducesTo_S8388608x4_S8388608_d1 h_S_) : (⟨S8388608x4, .f32⟩ : BufTy).Contents (Elt F) → (⟨S_, .f32⟩ : BufTy).Contents (Elt F) → (⟨S8388608, .f32⟩ : BufTy).Contents (Elt F)),
    nullary main_cst_1 (constant S_ .f32 0xFF800000#32),
    unary main_cst_1 main_v1 (broadcastInDim S8388608 ![] bcast_S_S8388608 : (⟨S_, .f32⟩ : BufTy).Contents (Elt F) → (⟨S8388608, .f32⟩ : BufTy).Contents (Elt F)),
    binary main_v1 main_v0 main_v2 (maximumf : (⟨S8388608, .f32⟩ : BufTy).Contents (Elt F) → (⟨S8388608, .f32⟩ : BufTy).Contents (Elt F) → (⟨S8388608, .f32⟩ : BufTy).Contents (Elt F)),
    unary main_v2 main_v3 (broadcastInDim S8388608x1 ![0] bcast_S8388608_S8388608x1_0 : (⟨S8388608, .f32⟩ : BufTy).Contents (Elt F) → (⟨S8388608x1, .f32⟩ : BufTy).Contents (Elt F)),
    unary main_v3 main_v4 (broadcastInDim S8388608x4 ![0, 1] bcast_S8388608x1_S8388608x4_0_1 : (⟨S8388608x1, .f32⟩ : BufTy).Contents (Elt F) → (⟨S8388608x4, .f32⟩ : BufTy).Contents (Elt F)),
    binary main_arg0 main_v4 main_v5 (subf : (⟨S8388608x4, .f32⟩ : BufTy).Contents (Elt F) → (⟨S8388608x4, .f32⟩ : BufTy).Contents (Elt F) → (⟨S8388608x4, .f32⟩ : BufTy).Contents (Elt F)),
    unary main_v5 main_v6 (Host.exp : (⟨S8388608x4, .f32⟩ : BufTy).Contents (Elt F) → (⟨S8388608x4, .f32⟩ : BufTy).Contents (Elt F)),
    nullary main_cst_2 (constant S_ .f32 0x00000000#32),
    binary main_v6 main_cst_2 main_v7 ((fun x v => Host.reduceAdd x v reducesTo_S8388608x4_S8388608_d1 h_S_) : (⟨S8388608x4, .f32⟩ : BufTy).Contents (Elt F) → (⟨S_, .f32⟩ : BufTy).Contents (Elt F) → (⟨S8388608, .f32⟩ : BufTy).Contents (Elt F)),
    unary main_v7 main_v8 (broadcastInDim S8388608x1 ![0] bcast_S8388608_S8388608x1_0 : (⟨S8388608, .f32⟩ : BufTy).Contents (Elt F) → (⟨S8388608x1, .f32⟩ : BufTy).Contents (Elt F)),
    unary main_v8 main_v9 (broadcastInDim S8388608x4 ![0, 1] bcast_S8388608x1_S8388608x4_0_1 : (⟨S8388608x1, .f32⟩ : BufTy).Contents (Elt F) → (⟨S8388608x4, .f32⟩ : BufTy).Contents (Elt F)),
    binary main_v6 main_v9 main_v10 (Host.divf : (⟨S8388608x4, .f32⟩ : BufTy).Contents (Elt F) → (⟨S8388608x4, .f32⟩ : BufTy).Contents (Elt F) → (⟨S8388608x4, .f32⟩ : BufTy).Contents (Elt F)),
    nullary main_cst_3 (constant S_ .f32 0x00000000#32),
    unary main_cst_3 main_v11 (broadcastInDim S8388608 ![] bcast_S_S8388608 : (⟨S_, .f32⟩ : BufTy).Contents (Elt F) → (⟨S8388608, .f32⟩ : BufTy).Contents (Elt F)),
    binary main_arg1 main_v11 main_v12 (cmpf .oeq : (⟨S8388608, .f32⟩ : BufTy).Contents (Elt F) → (⟨S8388608, .f32⟩ : BufTy).Contents (Elt F) → (⟨S8388608, .i1⟩ : BufTy).Contents (Elt F)),
    nullary main_cst_4 (constant S_ .f32 0x3F800000#32),
    unary main_cst_4 main_v13 (broadcastInDim S8388608 ![] bcast_S_S8388608 : (⟨S_, .f32⟩ : BufTy).Contents (Elt F) → (⟨S8388608, .f32⟩ : BufTy).Contents (Elt F)),
    binary main_arg1 main_v13 main_v14 (cmpf .oeq : (⟨S8388608, .f32⟩ : BufTy).Contents (Elt F) → (⟨S8388608, .f32⟩ : BufTy).Contents (Elt F) → (⟨S8388608, .i1⟩ : BufTy).Contents (Elt F)),
    nullary main_cst_5 (constant S_ .f32 0x40000000#32),
    unary main_cst_5 main_v15 (broadcastInDim S8388608 ![] bcast_S_S8388608 : (⟨S_, .f32⟩ : BufTy).Contents (Elt F) → (⟨S8388608, .f32⟩ : BufTy).Contents (Elt F)),
    binary main_arg1 main_v15 main_v16 (cmpf .oeq : (⟨S8388608, .f32⟩ : BufTy).Contents (Elt F) → (⟨S8388608, .f32⟩ : BufTy).Contents (Elt F) → (⟨S8388608, .i1⟩ : BufTy).Contents (Elt F)),
    nullary main_c (constantI S_ 32 2#32),
    nullary main_c_6 (constantI S_ 32 3#32),
    TRef.unary (.of main_c : TRef sig ⟨S_, .i32⟩) main_call0.v0 (broadcastInDim S8388608 ![] bcast_S_S8388608),
    TRef.unary (.of main_c_6 : TRef sig ⟨S_, .i32⟩) main_call0.v1 (broadcastInDim S8388608 ![] bcast_S_S8388608),
    TRef.ternary (.of main_v16 : TRef sig ⟨S8388608, .i1⟩) main_call0.v0 main_call0.v1 main_call0.v2 select,
    nullary main_c_7 (constantI S_ 32 1#32),
    TRef.unary (.of main_c_7 : TRef sig ⟨S_, .i32⟩) main_call1.v0 (broadcastInDim S8388608 ![] bcast_S_S8388608),
    TRef.ternary (.of main_v14 : TRef sig ⟨S8388608, .i1⟩) main_call1.v0 (.of main_v17 : TRef sig ⟨S8388608, .i32⟩) main_call1.v1 select,
    nullary main_c_8 (constantI S_ 32 0#32),
    TRef.unary (.of main_c_8 : TRef sig ⟨S_, .i32⟩) main_call2.v0 (broadcastInDim S8388608 ![] bcast_S_S8388608),
    TRef.ternary (.of main_v12 : TRef sig ⟨S8388608, .i1⟩) main_call2.v0 (.of main_v18 : TRef sig ⟨S8388608, .i32⟩) main_call2.v1 select,
    nullary main_c_9 (constantI S_ 32 0#32),
    unary main_c_9 main_v20 (broadcastInDim S8388608 ![] bcast_S_S8388608 : (⟨S_, .i32⟩ : BufTy).Contents (Elt F) → (⟨S8388608, .i32⟩ : BufTy).Contents (Elt F)),
    binary main_v19 main_v20 main_v21 (cmpi .slt : (⟨S8388608, .i32⟩ : BufTy).Contents (Elt F) → (⟨S8388608, .i32⟩ : BufTy).Contents (Elt F) → (⟨S8388608, .i1⟩ : BufTy).Contents (Elt F)),
    nullary main_c_10 (constantI S_ 32 4#32),
    unary main_c_10 main_v22 (broadcastInDim S8388608 ![] bcast_S_S8388608 : (⟨S_, .i32⟩ : BufTy).Contents (Elt F) → (⟨S8388608, .i32⟩ : BufTy).Contents (Elt F)),
    binary main_v19 main_v22 main_v23 (addi : (⟨S8388608, .i32⟩ : BufTy).Contents (Elt F) → (⟨S8388608, .i32⟩ : BufTy).Contents (Elt F) → (⟨S8388608, .i32⟩ : BufTy).Contents (Elt F)),
    ternary main_v21 main_v23 main_v19 main_v24 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    unary main_v24 main_v25 (broadcastInDim S8388608x1 ![0] bcast_S8388608_S8388608x1_0 : (⟨S8388608, .i32⟩ : BufTy).Contents (Elt F) → (⟨S8388608x1, .i32⟩ : BufTy).Contents (Elt F)),
    binary main_cst main_v25 main_v26 ((fun x i => Host.gather gather_S4x4_S8388608x1_S8388608x4_1_0_n_n_0_1_14 x i) : (⟨S4x4, .f32⟩ : BufTy).Contents (Elt F) → (⟨S8388608x1, .i32⟩ : BufTy).Contents (Elt F) → (⟨S8388608x4, .f32⟩ : BufTy).Contents (Elt F)),
    nullary main_cst_11 (constant S_ .f32 0x2EDBE6FF#32),
    unary main_cst_11 main_v27 (broadcastInDim S8388608x4 ![] bcast_S_S8388608x4 : (⟨S_, .f32⟩ : BufTy).Contents (Elt F) → (⟨S8388608x4, .f32⟩ : BufTy).Contents (Elt F)),
    binary main_v10 main_v27 main_v28 (addf : (⟨S8388608x4, .f32⟩ : BufTy).Contents (Elt F) → (⟨S8388608x4, .f32⟩ : BufTy).Contents (Elt F) → (⟨S8388608x4, .f32⟩ : BufTy).Contents (Elt F)),
    unary main_v28 main_v29 (Host.log : (⟨S8388608x4, .f32⟩ : BufTy).Contents (Elt F) → (⟨S8388608x4, .f32⟩ : BufTy).Contents (Elt F)),
    nullary main_cst_12 (constant S_ .f32 0x2EDBE6FF#32),
    unary main_cst_12 main_v30 (broadcastInDim S8388608x4 ![] bcast_S_S8388608x4 : (⟨S_, .f32⟩ : BufTy).Contents (Elt F) → (⟨S8388608x4, .f32⟩ : BufTy).Contents (Elt F)),
    binary main_v26 main_v30 main_v31 (addf : (⟨S8388608x4, .f32⟩ : BufTy).Contents (Elt F) → (⟨S8388608x4, .f32⟩ : BufTy).Contents (Elt F) → (⟨S8388608x4, .f32⟩ : BufTy).Contents (Elt F)),
    unary main_v31 main_v32 (Host.log : (⟨S8388608x4, .f32⟩ : BufTy).Contents (Elt F) → (⟨S8388608x4, .f32⟩ : BufTy).Contents (Elt F)),
    binary main_v29 main_v32 main_v33 (subf : (⟨S8388608x4, .f32⟩ : BufTy).Contents (Elt F) → (⟨S8388608x4, .f32⟩ : BufTy).Contents (Elt F) → (⟨S8388608x4, .f32⟩ : BufTy).Contents (Elt F)),
    binary main_v10 main_v33 main_v34 (mulf : (⟨S8388608x4, .f32⟩ : BufTy).Contents (Elt F) → (⟨S8388608x4, .f32⟩ : BufTy).Contents (Elt F) → (⟨S8388608x4, .f32⟩ : BufTy).Contents (Elt F)),
    nullary main_cst_13 (constant S_ .f32 0x00000000#32),
    binary main_v34 main_cst_13 main_v35 ((fun x v => Host.reduceAdd x v reducesTo_S8388608x4_S_d0_1 h_S_) : (⟨S8388608x4, .f32⟩ : BufTy).Contents (Elt F) → (⟨S_, .f32⟩ : BufTy).Contents (Elt F) → (⟨S_, .f32⟩ : BufTy).Contents (Elt F)) ]

-- one rewrite under the chain of binds per statement
set_option maxRecDepth 4096 in
/-- The entry point is that straight line: the called functions' bodies stand at their calls, and sequencing is
    associative with the empty return as its unit. -/
theorem main_eq (c : Dev nD) : main (F := F) c = seq ops := by
  simp only [main, fn_where.body, fn_where_0.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the signature only. -/
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., nullary_bufs_sub .., unary_bufs_sub .., unary_bufs_sub .., ternary_bufs_sub .., nullary_bufs_sub ..,
    unary_bufs_sub .., ternary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub ..⟩

/- The fold read at one buffer: each operation's result at its own result buffer is its function of the contents of
   its operand buffers, and at any other buffer what was there; two buffers are told apart as references. What is left
   at the result buffer is the composed term, equal to `result` by unfolding its named intermediate values; a typed
   reference's transport of contents is the identity at a literal reference. The reductions over the full-size array
   and the gather are never opened: the equation does not look inside them. -/

attribute [local irreducible] Host.reduce Host.reduceAdd Host.gather in
set_option maxRecDepth 8192 in
set_option maxHeartbeats 1000000 in
/-- After the 56 operations the result buffer holds `result` of what the two argument buffers held. -/
theorem result_eq (V : Valuation τ sig (Elt F)) :
    after ops V (main_v35 : DevRef τ sig) = result (V (main_arg0 : DevRef τ sig)) (V (main_arg1 : DevRef τ sig)) := by
  after_results_simp
  rfl

set_option maxHeartbeats 1000000 in
/-- No operation writes the first argument's buffer. -/
theorem arg0_eq (V : Valuation τ sig (Elt F)) :
    after ops V (main_arg0 : DevRef τ sig) = V (main_arg0 : DevRef τ sig) := by
  after_results_simp

set_option maxHeartbeats 1000000 in
/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of the
    entry point terminates with the result buffer at `result` of the two argument arrays' launch contents, and the
    two argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (result_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.Hand

end
-- ==== Proof.SpecWords.lean ====
/-
  The three float words the target value is compared with denote the extended reals 0, 1 and 2, which are pairwise
  distinct; so at most one of the three tests "the target value is 0", "is 1", "is 2" holds of any value.

  The word 0x00000000 has sign, exponent and fraction fields all zero: it denotes 0. The word 0x3F800000 has exponent
  field 127 and fraction field 0: it denotes 2^23 · 2^(127 − 127 − 23) = 1. The word 0x40000000 has exponent field 128 and
  fraction field 0: it denotes 2^23 · 2^(128 − 127 − 23) = 2.
-/
import proofs.«128885_j21036749815963_2_alg».proof.Proof.Spec

noncomputable section

namespace Cert.RevKL

open Idealize.ShloMosaic

/-- The word of +0.0 denotes 0. -/
theorem zero_eq : zero = 0 := by simp [Ideal.ofBits, Ideal.ieee]

/-- The word of 1.0 denotes 1. -/
theorem one_eq : one = 1 := by
  simp [Ideal.ofBits, Ideal.ieee, -EReal.coe_mul] <;> norm_num

/-- The word of 2.0 denotes 2. -/
theorem two_eq : two = 2 := by
  simp [Ideal.ofBits, Ideal.ieee, -EReal.coe_mul]
  refine (congrArg Real.toEReal (?_ : _ = (2 : ℝ))).trans ?_
  · norm_num
  · norm_cast

/-- 0, 1 and 2 are distinct extended reals, because they are distinct reals. -/
theorem zero_ne_one : zero ≠ one := by
  rw [zero_eq, one_eq]; exact _root_.zero_ne_one
theorem zero_ne_two : zero ≠ two := by
  rw [zero_eq, two_eq]; exact_mod_cast (by norm_num : (0 : ℝ) ≠ 2)
theorem one_ne_two : one ≠ two := by
  rw [one_eq, two_eq]; exact_mod_cast (by norm_num : (1 : ℝ) ≠ 2)

/-- The one-bit word of a decidable proposition is the set bit exactly when the proposition holds. -/
private theorem ofBool_decide_eq_one {p : Prop} [Decidable p] : BitVec.ofBool (decide p) = 1#1 ↔ p := by
  by_cases h : p <;> simp [h]

/-- Each test is the set bit exactly when the target value is the word's extended real. -/
theorem is0_eq_one_iff (t : EReal) : is0 t = 1#1 ↔ t = zero := ofBool_decide_eq_one
theorem is1_eq_one_iff (t : EReal) : is1 t = 1#1 ↔ t = one := ofBool_decide_eq_one
theorem is2_eq_one_iff (t : EReal) : is2 t = 1#1 ↔ t = two := ofBool_decide_eq_one

/-- No value passes two of the three tests: it would equal two distinct numbers. -/
theorem not_is0_and_is2 (t : EReal) : ¬(is0 t = 1#1 ∧ is2 t = 1#1) := fun ⟨h0, h2⟩ =>
  zero_ne_two (((is0_eq_one_iff t).1 h0).symm.trans ((is2_eq_one_iff t).1 h2))
theorem not_is1_and_is2 (t : EReal) : ¬(is1 t = 1#1 ∧ is2 t = 1#1) := fun ⟨h1, h2⟩ =>
  one_ne_two (((is1_eq_one_iff t).1 h1).symm.trans ((is2_eq_one_iff t).1 h2))
theorem not_is0_and_is1 (t : EReal) : ¬(is0 t = 1#1 ∧ is1 t = 1#1) := fun ⟨h0, h1⟩ =>
  zero_ne_one (((is0_eq_one_iff t).1 h0).symm.trans ((is1_eq_one_iff t).1 h1))

end Cert.RevKL

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.RefRead.lean ====
/-
  The reference's target distribution read at an index: it is the specification's.

  The row index of a target value is the word 0, 1, 2 or 3 chosen by three comparisons with the words of 0, 1 and 2; the
  step "index < 0 ? index + 4 : index" leaves each of the four words as it is. The index is broadcast to a unit column,
  and the gather reads the 4×4 table at the row that word names (read signed and clamped into the table, which changes
  none of 0, 1, 2, 3) and at the class. The sixteen table words are the specification's nested choices in every case of
  the three one-bit answers in which "is 2" excludes "is 0" and "is 1" — and it does, since a value equal to the word
  of 0 or of 1 is not equal to the word of 2. Both sides are the value of one word, so the comparison is between words.
-/
import proofs.«128885_j21036749815963_2_alg».proof.Proof.RefTerm
import proofs.«128885_j21036749815963_2_alg».proof.Proof.Spec
import proofs.«128885_j21036749815963_2_alg».proof.Proof.SpecWords
import proofs.«128885_j21036749815963_2_alg».proof.Proof.LibScatterGather
import Idealize.ShloMosaic.Lib.IdealHost
import Idealize.ShloMosaic.Lib.Pipeline.Value

noncomputable section

namespace Cert.ReferenceIdeal.Hand

open Idealize.ShloMosaic Idealize.ShloMosaic.ValueIdx Cert.ReferenceIdeal Cert.ReferenceIdeal.Facts₀

variable [Cert.ReferenceIdeal.Facts]

/-! ## The broadcast of a per-row value to a unit column -/

/-- A per-row value broadcast to a unit column reads the row's value. -/
theorem bcastCol_apply {α : Type} (v : S8388608.Idx → α) (n : Fin 8388608) :
    broadcastInDim S8388608x1 ![0] bcast_S8388608_S8388608x1_0 v (ix2 n (0 : Fin 1)) = v (ix1 n) := by
  refine broadcastInDim_apply _ _ v _ (ix1 n) fun a => ?_
  match a with
  | ⟨0, _⟩ => rfl

/-! ## The target distribution at an index -/

/-- The table row three one-bit answers select, as a word: 0, 1, 2 or 3. -/
def idxWord (b0 b1 b2 : BitVec 1) : BitVec 32 :=
  Scalar.select b0 0#32 (Scalar.select b1 1#32 (Scalar.select b2 2#32 3#32))

/-- The reference's row index at row `n`: the word the three comparisons of the target value select, after the step
    "index < 0 ? index + 4 : index". -/
theorem rowIndex_raw (T : FVec Ideal S8388608 .f32) (n : Fin 8388608) :
    rowIndex (F := Ideal) T (ix1 n)
      = Scalar.select
          (IntOp.cmpi .slt (idxWord (Cert.RevKL.is0 (T (ix1 n))) (Cert.RevKL.is1 (T (ix1 n))) (Cert.RevKL.is2 (T (ix1 n)))) 0#32)
          (IntOp.addi (idxWord (Cert.RevKL.is0 (T (ix1 n))) (Cert.RevKL.is1 (T (ix1 n))) (Cert.RevKL.is2 (T (ix1 n)))) 4#32)
          (idxWord (Cert.RevKL.is0 (T (ix1 n))) (Cert.RevKL.is1 (T (ix1 n))) (Cert.RevKL.is2 (T (ix1 n)))) := rfl

/-- None of the four index words is negative, so the step leaves the word as it is. -/
theorem idxWord_norm (b0 b1 b2 : BitVec 1) :
    Scalar.select (IntOp.cmpi .slt (idxWord b0 b1 b2) 0#32) (IntOp.addi (idxWord b0 b1 b2) 4#32) (idxWord b0 b1 b2)
      = idxWord b0 b1 b2 := by
  rcases BitVec.eq_zero_or_eq_one b0 with rfl | rfl <;> rcases BitVec.eq_zero_or_eq_one b1 with rfl | rfl <;>
    rcases BitVec.eq_zero_or_eq_one b2 with rfl | rfl <;> decide

theorem rowIndex_apply (T : FVec Ideal S8388608 .f32) (n : Fin 8388608) :
    rowIndex (F := Ideal) T (ix1 n)
      = idxWord (Cert.RevKL.is0 (T (ix1 n))) (Cert.RevKL.is1 (T (ix1 n))) (Cert.RevKL.is2 (T (ix1 n))) :=
  (rowIndex_raw T n).trans (idxWord_norm _ _ _)

/-- A choice between two words' values is the value of the chosen word. -/
theorem select_ofBits (c : BitVec 1) (a b : BitVec 32) :
    Scalar.select c (Ideal.ofBits .f32 a) (Ideal.ofBits .f32 b) = Ideal.ofBits .f32 (Scalar.select c a b) := by
  unfold Scalar.select; split <;> rfl

/-- The specification's target distribution in words, as a function of the three one-bit answers. -/
def targetWord (b0 b1 b2 : BitVec 1) : Fin 4 → BitVec 32 :=
  ![Scalar.select b0 0x3F666666#32 (Scalar.select b1 0x3DCCCCCD#32 0x00000000#32),
    Scalar.select b0 0x3DCCCCCD#32 (Scalar.select b1 0x3F666666#32 0x00000000#32),
    Scalar.select b2 0x3F666666#32 (Scalar.select (IntOp.xori (IntOp.ori (IntOp.ori b0 b1) b2) 1#1) 0x3DCCCCCD#32 0x00000000#32),
    Scalar.select b2 0x3DCCCCCD#32 (Scalar.select (IntOp.xori (IntOp.ori (IntOp.ori b0 b1) b2) 1#1) 0x3F666666#32 0x00000000#32)]

theorem target_eq_word (t : EReal) (j : Fin 4) :
    Cert.RevKL.target t j
      = Ideal.ofBits .f32 (targetWord (Cert.RevKL.is0 t) (Cert.RevKL.is1 t) (Cert.RevKL.is2 t) j) := by
  unfold Cert.RevKL.target Cert.RevKL.isOther targetWord
  simp only [select_ofBits]
  fin_cases j <;> rfl

/-- The table's word at the row the index word selects (clamped into the table) and class `j` is the specification's,
    whenever the answer "is 2" excludes the answers "is 0" and "is 1". -/
theorem words_agree (b0 b1 b2 : BitVec 1) (h02 : b0 = 1#1 → b2 = 0#1) (h12 : b1 = 1#1 → b2 = 0#1) (r j : Fin 4)
    (hr : r.val = min (idxWord b0 b1 b2).toInt.toNat (4 - 1)) :
    lit0 (S4x4.rowMajor (ix2 r j)) = targetWord b0 b1 b2 j := by
  rcases BitVec.eq_zero_or_eq_one b0 with rfl | rfl <;> rcases BitVec.eq_zero_or_eq_one b1 with rfl | rfl <;>
    rcases BitVec.eq_zero_or_eq_one b2 with rfl | rfl
  all_goals first
    | exact absurd (h02 rfl) (by decide)
    | exact absurd (h12 rfl) (by decide)
    | (clear h02 h12; revert r j; decide)

/-- The reference's target distribution at (n, j) is the specification's for the target value of row `n`. -/
theorem targets_apply (T : FVec Ideal S8388608 .f32) (n : Fin 8388608) (j : Fin 4) :
    targets (F := Ideal) T (ix2 n j) = Cert.RevKL.target (T (ix1 n)) j := by
  have hd : gather_S4x4_S8388608x1_S8388608x4_1_0_n_n_0_1_14
      = Cert.Lib.ScatterGather.rowsDims 4 4 8388608 gather_S4x4_S8388608x1_S8388608x4_1_0_n_n_0_1_14_wf := rfl
  unfold targets
  rw [hd, Cert.Lib.ScatterGather.gather_rows_apply (by decide), target_eq_word]
  refine congrArg (Ideal.ofBits .f32) (words_agree _ _ _ ?_ ?_ _ j ?_)
  · exact fun h => eq_zero_of_ne_one fun h2 => Cert.RevKL.not_is0_and_is2 (T (ix1 n)) ⟨h, h2⟩
  · exact fun h => eq_zero_of_ne_one fun h2 => Cert.RevKL.not_is1_and_is2 (T (ix1 n)) ⟨h, h2⟩
  · show min _ _ = min _ _
    rw [bcastCol_apply, rowIndex_apply]

end Cert.ReferenceIdeal.Hand

end
-- ==== Proof.RefProbs.lean ====
/-
  The reference's softmax read at an index.

  The reference computes, for the whole [8388608, 4] array `X` at once: the maximum of each row (a reduce over the class
  axis from the word of `−∞`, then the maximum with that word again), the exponentials of the entries less their row's
  maximum, the sum of each row of those, and the quotient. A per-row value reaches the rows' four classes through two
  broadcasts, first to a unit column, then along the classes; read at `(n, j)` they give the value of row `n`. So the
  entry at row `n` and class `j` is the softmax of the four logits of row `n` at class `j`. Every operation is read at
  an index with literal coordinates; nothing is evaluated.
-/
import proofs.«128885_j21036749815963_2_alg».proof.Proof.RefTerm
import proofs.«128885_j21036749815963_2_alg».proof.Proof.Spec
import Idealize.ShloMosaic.Lib.IdealHost
import Idealize.ShloMosaic.Lib.Pipeline.Value

noncomputable section

open scoped BigOperators

namespace Cert.ReferenceIdeal.Probs

open Idealize.ShloMosaic Idealize.ShloMosaic.ValueIdx Cert.ReferenceIdeal Cert.ReferenceIdeal.Facts₀

/-! ## A pointwise host operation the library does not name -/

/-- The host's exponential at an index is the exponential of the element. -/
theorem hostExp_apply {s : Shape} {φ : FTy} (a : FVec Ideal s φ) (i : s.Idx) : Host.exp a i = Ideal.exp (a i) := rfl

/-! ## The broadcasts of a per-row value -/

/-- A per-row value broadcast to a unit column reads the row's value. -/
theorem bcastCol_apply {α : Type} (v : S8388608.Idx → α)
    (h : S8388608.BroadcastsInDim S8388608x1 (![0] : Fin 1 → Fin S8388608x1.rank)) (n : Fin 8388608) :
    broadcastInDim S8388608x1 ![0] h v (ix2 n (0 : Fin 1)) = v (ix1 n) := by
  refine broadcastInDim_apply _ _ v _ (ix1 n) fun a => ?_
  match a with
  | ⟨0, _⟩ => rfl

/-- A unit column broadcast along the four classes reads the column's entry of the row. -/
theorem bcastRow_apply {α : Type} (v : S8388608x1.Idx → α)
    (h : S8388608x1.BroadcastsInDim S8388608x4 (![0, 1] : Fin 2 → Fin S8388608x4.rank)) (n : Fin 8388608) (j : Fin 4) :
    broadcastInDim S8388608x4 ![0, 1] h v (ix2 n j) = v (ix2 n (0 : Fin 1)) := by
  refine broadcastInDim_apply _ _ v _ (ix2 n (0 : Fin 1)) fun a => ?_
  match a with
  | ⟨0, _⟩ => rfl
  | ⟨1, _⟩ => rfl

/-! ## The two reductions over a row's four classes -/

/-- The shape fact that names the index a reduction over the class axis inserts a class at. -/
theorem reduces_row : S8388608x4.Reduces [1] S8388608 := by decide

/-- A row index with class `k` put back on the class axis is `(n, k)`. -/
theorem lift_row (h : S8388608x4.Reduces [1] S8388608) (n : Fin 8388608) (k : Fin 4) : h.lift (ix1 n) k = ix2 n k := by
  funext c
  match c with
  | ⟨0, _⟩ => exact Fin.ext rfl
  | ⟨1, _⟩ => exact Fin.ext rfl

/-- The host's max-reduce over the classes from the word of `−∞`, then the maximum with that word broadcast to the rows, at row
    `n`: the fold of `max` over the row's four entries (the fold is at least its start, so the second maximum changes nothing). -/
theorem rowMax_apply (X : FVec Ideal S8388608x4 .f32) (hb : S_.BroadcastsInDim S8388608 (![] : Fin 0 → Fin S8388608.rank))
    (h' : S8388608x4.ReducesTo [1] S8388608) (hu : 0 < S_.numel) (n : Fin 8388608) :
    maximumf (broadcastInDim S8388608 ![] hb (constant (F := Ideal) S_ .f32 0xFF800000#32))
        (Host.reduce FloatOps.maximumf X (constant (F := Ideal) S_ .f32 0xFF800000#32) h' hu) (ix1 n)
      = Cert.RevKL.rowMax (fun k => X (ix2 n k)) := by
  rw [maximumf_apply, broadcastInDim_scalar_apply, constant_apply,
    Host.reduce_eq_fold_single FloatOps.maximumf X _ h' reduces_row hu (ix1 n)]
  have hf : (X ∘ reduces_row.lift (ix1 n)) = fun k : Fin 4 => X (ix2 n k) :=
    funext fun k => congrArg X (lift_row reduces_row n k)
  have e : (Finset.univ : Finset (Fin (S8388608x4.size 1))).fold FloatOps.maximumf
        (constant (F := Ideal) S_ .f32 0xFF800000#32 (Shape.Idx.first hu)) (X ∘ reduces_row.lift (ix1 n))
      = Cert.RevKL.rowMax (fun k => X (ix2 n k)) :=
    congrArg (fun f => Finset.fold max (Ideal.ofBits .f32 0xFF800000#32) f (Finset.univ : Finset (Fin 4))) hf
  rw [e]
  exact max_eq_right ((Finset.le_fold_max _).mpr (Or.inl le_rfl))

/-- The host's sum over the classes from the zero word, at row `n`: the sum of the row's four entries. -/
theorem rowSum_apply (Y : FVec Ideal S8388608x4 .f32) (h' : S8388608x4.ReducesTo [1] S8388608) (hu : 0 < S_.numel)
    (n : Fin 8388608) :
    Host.reduceAdd Y (constant (F := Ideal) S_ .f32 0x00000000#32) h' hu (ix1 n) = ∑ k : Fin 4, Y (ix2 n k) := by
  rw [hostReduceAdd_apply, Ideal.hostReduceAdd_single h' reduces_row, constant_apply, Ideal.ofBits_zero_f32, zero_add]
  exact Finset.sum_congr rfl fun k _ => congrArg Y (lift_row reduces_row n k)

/-! ## The softmax, its operations one by one -/

/-- The row maxima. -/
def rowMaxima (X : FVec Ideal S8388608x4 .f32) : FVec Ideal S8388608 .f32 :=
  maximumf (broadcastInDim S8388608 ![] bcast_S_S8388608 (constant (F := Ideal) S_ .f32 0xFF800000#32))
    (Host.reduce FloatOps.maximumf X (constant (F := Ideal) S_ .f32 0xFF800000#32) reducesTo_S8388608x4_S8388608_d1 h_S_)

/-- A per-row value copied to the rows' four classes: to a unit column, then along the classes. -/
def toCols (v : FVec Ideal S8388608 .f32) : FVec Ideal S8388608x4 .f32 :=
  broadcastInDim S8388608x4 ![0, 1] bcast_S8388608x1_S8388608x4_0_1 (broadcastInDim S8388608x1 ![0] bcast_S8388608_S8388608x1_0 v)

/-- The exponentials of the entries less their row's maximum. -/
def shiftedExp (X : FVec Ideal S8388608x4 .f32) : FVec Ideal S8388608x4 .f32 := Host.exp (subf X (toCols (rowMaxima X)))

/-- Their row sums. -/
def rowSums (X : FVec Ideal S8388608x4 .f32) : FVec Ideal S8388608 .f32 :=
  Host.reduceAdd (shiftedExp X) (constant (F := Ideal) S_ .f32 0x00000000#32) reducesTo_S8388608x4_S8388608_d1 h_S_

/-- The reference's softmax is the quotient of the shifted exponentials by their row sums. -/
theorem probs_eq (X : FVec Ideal S8388608x4 .f32) :
    Hand.probs (F := Ideal) X = Host.divf (shiftedExp X) (toCols (rowSums X)) := rfl

theorem toCols_apply (v : FVec Ideal S8388608 .f32) (n : Fin 8388608) (j : Fin 4) : toCols v (ix2 n j) = v (ix1 n) :=
  (bcastRow_apply _ _ n j).trans (bcastCol_apply v _ n)

theorem rowMaxima_apply (X : FVec Ideal S8388608x4 .f32) (n : Fin 8388608) :
    rowMaxima X (ix1 n) = Cert.RevKL.rowMax (fun k => X (ix2 n k)) := rowMax_apply X _ _ _ n

theorem shiftedExp_apply (X : FVec Ideal S8388608x4 .f32) (n : Fin 8388608) (k : Fin 4) :
    shiftedExp X (ix2 n k) = Cert.RevKL.shifted (fun k => X (ix2 n k)) k := by
  unfold shiftedExp Cert.RevKL.shifted
  rw [hostExp_apply, subf_apply, toCols_apply, rowMaxima_apply]

theorem rowSums_apply (X : FVec Ideal S8388608x4 .f32) (n : Fin 8388608) :
    rowSums X (ix1 n) = ∑ k : Fin 4, Cert.RevKL.shifted (fun k => X (ix2 n k)) k :=
  (rowSum_apply (shiftedExp X) _ _ n).trans (Finset.sum_congr rfl fun k _ => shiftedExp_apply X n k)

/-- THE REFERENCE'S SOFTMAX AT AN INDEX: at row `n` and class `j`, the probability of class `j` among the row's logits. -/
theorem probs_apply (X : FVec Ideal S8388608x4 .f32) (n : Fin 8388608) (j : Fin 4) :
    Cert.ReferenceIdeal.Hand.probs (F := Ideal) X (ix2 n j) = Cert.RevKL.prob (fun k => X (ix2 n k)) j := by
  rw [probs_eq, hostDivf_apply, shiftedExp_apply, toCols_apply, rowSums_apply]
  rfl

end Cert.ReferenceIdeal.Probs

end
-- ==== Proof.RefTotal.lean ====
/-
  The reference's result as the loss of the specification, given what its two row-wise arrays are at each index.

  The reference's loss-term array is, as a function of the prediction array `P` and the target-distribution array `Q`,
  `P · (log (P + ε) − log (Q + ε))` with every operation taken index by index and `ε` the same word at every index; so
  at row `n` and class `j` it is the specification's term as soon as `P` there is the softmax of row `n` and `Q` there
  is the target distribution of the row's target value. The result is the sum of that array over all its indices from
  the initial value 0, and a sum over the pairs (row, class) is the sum over the rows of the sums over the classes.
-/
import proofs.«128885_j21036749815963_2_alg».proof.Proof.RefTerm
import proofs.«128885_j21036749815963_2_alg».proof.Proof.Spec

noncomputable section

namespace Cert.ReferenceIdeal.Total

open Idealize.ShloMosaic Idealize.ShloMosaic.ValueIdx Cert.ReferenceIdeal Cert.ReferenceIdeal.Hand
open Cert.ReferenceIdeal.Facts₀

/-- The array holding the word of `ε` at every index. -/
abbrev epsArr : FVec Ideal S8388608x4 .f32 :=
  broadcastInDim S8388608x4 ![] bcast_S_S8388608x4 (constant S_ .f32 0x2EDBE6FF#32)

/-- The loss-term array as one expression of the prediction array and the target-distribution array. -/
theorem terms_eq (X : FVec Ideal S8388608x4 .f32) (T : FVec Ideal S8388608 .f32) :
    terms (F := Ideal) X T
      = mulf (probs (F := Ideal) X) (subf (Host.log (addf (probs (F := Ideal) X) epsArr)) (Host.log (addf (targets (F := Ideal) T) epsArr))) := rfl

/-- That expression at one index, for any two arrays: every operation acts index by index, and the `ε` array holds
    `ε` everywhere. -/
theorem term_apply (P Q : FVec Ideal S8388608x4 .f32) (i : S8388608x4.Idx) :
    mulf P (subf (Host.log (addf P epsArr)) (Host.log (addf Q epsArr))) i
      = P i * (Ideal.log (P i + Cert.RevKL.eps) - Ideal.log (Q i + Cert.RevKL.eps)) := rfl

/-- The reference's loss term at row `n` and class `j` is the specification's, given the prediction and the target
    distribution there. -/
theorem terms_apply_of (X : FVec Ideal S8388608x4 .f32) (T : FVec Ideal S8388608 .f32) (n : Fin 8388608) (j : Fin 4)
    (hp : probs (F := Ideal) X (ix2 n j) = Cert.RevKL.prob (fun k => X (ix2 n k)) j)
    (hq : targets (F := Ideal) T (ix2 n j) = Cert.RevKL.target (T (ix1 n)) j) :
    terms (F := Ideal) X T (ix2 n j) = Cert.RevKL.term (fun k => X (ix2 n k)) (T (ix1 n)) j := by
  rw [terms_eq]
  generalize probs (F := Ideal) X = P at hp ⊢
  generalize targets (F := Ideal) T = Q at hq ⊢
  rw [term_apply, hp, hq]
  rfl

/-- The reference's result as the sum of the initial value and its loss-term array over every index. -/
theorem result_eq_reduce (X : FVec Ideal S8388608x4 .f32) (T : FVec Ideal S8388608 .f32) :
    result (F := Ideal) X T
      = Host.reduceAdd (terms (F := Ideal) X T) (constant S_ .f32 0x00000000#32) reducesTo_S8388608x4_S_d0_1 h_S_ := rfl

/-- The sum of any array over every index from the initial value 0, as the double sum over rows and classes. -/
theorem reduce_total (A : FVec Ideal S8388608x4 .f32) (i : S_.Idx) :
    (Host.reduceAdd A (constant S_ .f32 0x00000000#32) reducesTo_S8388608x4_S_d0_1 h_S_ : FVec Ideal S_ .f32) i
      = ∑ n : Fin 8388608, ∑ j : Fin 4, A (ix2 n j) := by
  show Ideal.hostReduceAdd reducesTo_S8388608x4_S_d0_1 A (Ideal.ofBits .f32 0x00000000#32) i = _
  rw [Ideal.hostReduceAdd_total _ (fun b => b.elim0), Ideal.ofBits_zero_f32, zero_add, sum_idx2]

/-- The reference's result is the specification's total loss, given that its loss-term array is the specification's
    term at every row and class. -/
theorem result_eq_of (X : FVec Ideal S8388608x4 .f32) (T : FVec Ideal S8388608 .f32)
    (h : ∀ (n : Fin 8388608) (j : Fin 4), terms (F := Ideal) X T (ix2 n j) = Cert.RevKL.term (fun k => X (ix2 n k)) (T (ix1 n)) j) :
    result (F := Ideal) X T = fun _ => Cert.RevKL.total X T := by
  funext i
  rw [result_eq_reduce]
  generalize terms (F := Ideal) X T = A at h ⊢
  rw [reduce_total]
  exact Finset.sum_congr rfl fun n _ => Finset.sum_congr rfl fun j _ => h n j

end Cert.ReferenceIdeal.Total

end
-- ==== Proof.RefValue.lean ====
/-
  The reference's value at the exact instance: its result is the specification's whole loss of its two arguments. The
  softmax of every row is the specification's `prob`, the gathered table row of every target value is the specification's
  `target`, hence every loss term is the specification's `term`, and the host sum over every row and class from the zero
  word is their sum.
-/
import proofs.«128885_j21036749815963_2_alg».proof.Proof.RefRead
import proofs.«128885_j21036749815963_2_alg».proof.Proof.RefProbs
import proofs.«128885_j21036749815963_2_alg».proof.Proof.RefTotal

noncomputable section

namespace Cert.ReferenceIdeal.Hand

open Idealize.ShloMosaic Idealize.ShloMosaic.ValueIdx Cert.ReferenceIdeal

/-- The reference's result is the whole loss of its arguments. -/
theorem result_total (X : FVec Ideal S8388608x4 .f32) (T : FVec Ideal S8388608 .f32) :
    result (F := Ideal) X T = fun _ => Cert.RevKL.total X T :=
  Cert.ReferenceIdeal.Total.result_eq_of X T fun n j =>
    Cert.ReferenceIdeal.Total.terms_apply_of X T n j (Cert.ReferenceIdeal.Probs.probs_apply X n j) (targets_apply T n j)

end Cert.ReferenceIdeal.Hand

end
-- ==== Proof.lean ====
/-
  The certificate of a fused loss kernel against its reference. Both programs compute, from logits `x` of shape
  [8388608, 4] and target values `t` of shape [8388608], the sum over every row `n` and class `j` of
  `p · (log (p + ε) − log (q + ε))`, where `p` is the softmax of row `n` and `q` is the target distribution of `t n`: one of
  four fixed rows, chosen by whether `t n` is 0, 1, 2 or anything else.

  The kernel walks the rows in 512 blocks of 16384: at each grid point it computes the block's loss and adds it into a
  one-entry accumulator carried from point to point (reset at the first point, copied out at the last); the target
  distribution is built by nested choices on three comparisons. The reference computes the softmax over the whole array,
  looks the target distribution up in a 4×4 table at an index built from the same three comparisons, and sums everything
  at once. At the exact instance (floats are extended reals, operations exact) both are the specification's `total`: the
  kernel's accumulator is the sum of the block losses in point order, which is the sum over all rows because addition of
  extended reals is commutative and associative (no finiteness is needed, and the precondition is never opened); the
  nested choices and the table lookup agree because a target value cannot equal two of 0, 1, 2 at once.

  The three frames are the generated frame certificates (the reference's: its run with the result dropped); the ideal
  pass rewrote nothing, so `preserves` is trivial.
-/
import proofs.«128885_j21036749815963_2_alg».proof.Defs
import proofs.«128885_j21036749815963_2_alg».proof.Proof.Gen.Kernel
import proofs.«128885_j21036749815963_2_alg».proof.Proof.Gen.Kernel.Skeleton
import proofs.«128885_j21036749815963_2_alg».proof.Proof.Gen.Kernel.Launch
import proofs.«128885_j21036749815963_2_alg».proof.Proof.Gen.Kernel.Points
import proofs.«128885_j21036749815963_2_alg».proof.Proof.Gen.Kernel.Frame
import proofs.«128885_j21036749815963_2_alg».proof.Proof.Gen.KernelIdeal
import proofs.«128885_j21036749815963_2_alg».proof.Proof.Gen.KernelIdeal.Skeleton
import proofs.«128885_j21036749815963_2_alg».proof.Proof.Gen.KernelIdeal.Launch
import proofs.«128885_j21036749815963_2_alg».proof.Proof.Gen.KernelIdeal.Points
import proofs.«128885_j21036749815963_2_alg».proof.Proof.Gen.KernelIdeal.Frame
import proofs.«128885_j21036749815963_2_alg».proof.Proof.Gen.ReferenceIdeal
import proofs.«128885_j21036749815963_2_alg».proof.Proof.Gen.Pre_finite_inputs
import proofs.«128885_j21036749815963_2_alg».proof.Proof.KernelValue
import proofs.«128885_j21036749815963_2_alg».proof.Proof.RefRun
import proofs.«128885_j21036749815963_2_alg».proof.Proof.RefValue
import Idealize.ShloMosaic.Adequacy
import Idealize.ShloMosaic.Init

noncomputable section

namespace Cert.Proof.Claims

open Idealize.ShloMosaic Idealize.SL.Sem

/-- The word-level kernel runs and keeps its arguments: the generated frame. -/
theorem frame_k : Cert.frame_Kernel := fun m ρ _ => Cert.Kernel.Gen.frame m ρ

/-- So does the kernel read at the exact instance. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- At the exact instance the kernel's result is the whole loss of its arguments (the accumulator over the grid, block
    by block) and the reference's result is the whole loss of its arguments (one sum over every row and class): the same
    extended real when the arguments agree. -/
theorem algebraic : Cert.algebraic_KernelIdeal_ReferenceIdeal := by
  intro m ρ m' ρ' _ hagree
  refine ⟨fun c => fun _ => Cert.RevKL.total (Cert.KernelIdeal.Hand.argX m c) (Cert.KernelIdeal.Hand.argT m c),
    Cert.KernelIdeal.Hand.run_value m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.ReferenceIdeal.Hand.result_total _ _

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
